-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S3200000 : Shape := ⟨1, ![3200000]⟩
abbrev S100000 : Shape := ⟨1, ![100000]⟩
abbrev S50000 : Shape := ⟨1, ![50000]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S3200000 : S_.BroadcastsInDim S3200000 (![] : Fin 0 → Fin S3200000.rank)
  reducesTo_S3200000_S_d0 : S3200000.ReducesTo [0] S_
  bcast_S_S100000 : S_.BroadcastsInDim S100000 (![] : Fin 0 → Fin S100000.rank)
  reducesTo_S100000_S_d0 : S100000.ReducesTo [0] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg6 : FVec F S100000 .f32) (main_arg7 : FVec F S50000 .f32) (main_v13 : IVec S_ 1) (main_v16 : IVec S3200000 1) : IVec S_ 1 :=
  let main_c_5 : IVec S_ 1 := constantI S_ 1 1#1
  let main_v17 : IVec S_ 1 := (fun x v => Host.reduce IntOp.andi x v reducesTo_S3200000_S_d0 h_S_) main_v16 main_c_5
  let main_v18 : IVec S_ 1 := andi main_v13 main_v17
  let main_v19 : FVec F S100000 .f32 := Host.absf main_arg6
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_v24 : FVec F S50000 .f32 := Host.absf main_arg7
  let main_cst_8 : FVec F S_ .f32 := constant S_ .f32 0x7F800000#32
  let main_v25 : FVec F S50000 .f32 := broadcastInDim S50000 ![] bcast_S_S50000 main_cst_8
  let main_v26 : IVec S50000 1 := cmpf .olt main_v24 main_v25
  let main_c_9 : IVec S_ 1 := constantI S_ 1 1#1
  let main_v27 : IVec S_ 1 := (fun x v => Host.reduce IntOp.andi x v reducesTo_S50000_S_d0 h_S_) main_v26 main_c_9
  let main_v28 : IVec S_ 1 := andi main_v23 main_v27
  main_v28

def fn {F : FTy → Type} [FloatOps F] (main_arg0 : FVec F S100000x64 .f32) (main_arg1 : FVec F S50000x64 .f32) (main_arg2 : IVec S3200000 32) (main_arg3 : IVec S3200000 32) (main_arg4 : FVec F S3200000 .f32) (main_arg5 : FVec F S3200000 .f32) (main_arg6 : FVec F S100000 .f32) (main_arg7 : FVec F S50000 .f32) (main_arg8 : IVec S4096 32) (main_arg9 : IVec S4096 32) (main_arg10 : IVec S4096 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3200000 .f32 := Host.absf main_arg4
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  let main_v14 : FVec F S3200000 .f32 := Host.absf main_arg5
  let main_cst_4 : FVec F S_ .f32 := constant S_ .f32 0x7F800000#32
  let main_v15 : FVec F S3200000 .f32 := broadcastInDim S3200000 ![] bcast_S_S3200000 main_cst_4
  let main_v16 : IVec S3200000 1 := cmpf .olt main_v14 main_v15
  fn_part1 (F := F) main_arg6 main_arg7 main_v13 main_v16
-- ==== Kernel.lean ====
abbrev S100000x64 : Shape := ⟨2, ![100000, 64]⟩
abbrev S50000x64 : Shape := ⟨2, ![50000, 64]⟩
abbrev S3200000 : Shape := ⟨1, ![3200000]⟩
abbrev S100000 : Shape := ⟨1, ![100000]⟩
abbrev S50000 : Shape := ⟨1, ![50000]⟩
abbrev S4096 : Shape := ⟨1, ![4096]⟩
abbrev S100000x1 : Shape := ⟨2, ![100000, 1]⟩
abbrev S50000x1 : Shape := ⟨2, ![50000, 1]⟩
abbrev S_ : Shape := ⟨0, ![]⟩
abbrev S3200000x1 : Shape := ⟨2, ![3200000, 1]⟩
abbrev S3200000x64 : Shape := ⟨2, ![3200000, 64]⟩
abbrev S5000x64 : Shape := ⟨2, ![5000, 64]⟩
abbrev S5000x1 : Shape := ⟨2, ![5000, 1]⟩
abbrev S4096x1 : Shape := ⟨2, ![4096, 1]⟩
abbrev S4096x64 : Shape := ⟨2, ![4096, 64]⟩
abbrev S1x1 : Shape := ⟨2, ![1, 1]⟩
abbrev S1 : Shape := ⟨1, ![1]⟩

abbrev nBuf : Space → Nat
  | .hbm => 110
  | .vmem => 40
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S3200000, .i32⟩
  | .hbm, ⟨3, _⟩ => ⟨S3200000, .i32⟩
  | .hbm, ⟨4, _⟩ => ⟨S3200000, .f32⟩
  | .hbm, ⟨5, _⟩ => ⟨S3200000, .f32⟩
  | .hbm, ⟨6, _⟩ => ⟨S100000, .f32⟩
  | .hbm, ⟨7, _⟩ => ⟨S50000, .f32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S100000x1, .f32⟩
  | .hbm, ⟨12, _⟩ => ⟨S50000x1, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x64, .f32⟩
  | .hbm, ⟨22, _⟩ => ⟨S3200000x1, .f32⟩
  | .hbm, ⟨23, _⟩ => ⟨S3200000x64, .f32⟩
  | .hbm, ⟨24, _⟩ => ⟨S3200000x64, .f32⟩
  | .hbm, ⟨25, _⟩ => ⟨S_, .f32⟩
  | .hbm, ⟨26, _⟩ => ⟨S100000x64, .f32⟩
  | .hbm, ⟨27, _⟩ => ⟨S3200000x1, .i32⟩
  | .hbm, ⟨28, _⟩ => ⟨S100000x64, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x64, .f32⟩
  | .hbm, ⟨38, _⟩ => ⟨S3200000x1, .f32⟩
  | .hbm, ⟨39, _⟩ => ⟨S3200000x64, .f32⟩
  | .hbm, ⟨40, _⟩ => ⟨S3200000x64, .f32⟩
  | .hbm, ⟨41, _⟩ => ⟨S_, .f32⟩
  | .hbm, ⟨42, _⟩ => ⟨S50000x64, .f32⟩
  | .hbm, ⟨43, _⟩ => ⟨S3200000x1, .i32⟩
  | .hbm, ⟨44, _⟩ => ⟨S50000x64, .f32⟩
  | .hbm, ⟨45, _⟩ => ⟨S100000x64, .f32⟩
  | .hbm, ⟨46, _⟩ => ⟨S50000x64, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x64, .f32⟩
  | .hbm, ⟨56, _⟩ => ⟨S3200000x1, .f32⟩
  | .hbm, ⟨57, _⟩ => ⟨S3200000x64, .f32⟩
  | .hbm, ⟨58, _⟩ => ⟨S3200000x64, .f32⟩
  | .hbm, ⟨59, _⟩ => ⟨S_, .f32⟩
  | .hbm, ⟨60, _⟩ => ⟨S100000x64, .f32⟩
  | .hbm, ⟨61, _⟩ => ⟨S3200000x1, .i32⟩
  | .hbm, ⟨62, _⟩ => ⟨S100000x64, .f32⟩
  | .hbm, ⟨63, _⟩ => ⟨S_, .i32⟩
  | .hbm, ⟨64, _⟩ => ⟨S3200000, .i32⟩
  | .hbm, ⟨65, _⟩ => ⟨S3200000, .i1⟩
  | .hbm, ⟨66, _⟩ => ⟨S_, .i32⟩
  | .hbm, ⟨67, _⟩ => ⟨S3200000, .i32⟩
  | .hbm, ⟨68, _⟩ => ⟨S3200000, .i32⟩
  | .hbm, ⟨69, _⟩ => ⟨S3200000, .i32⟩
  | .hbm, ⟨70, _⟩ => ⟨S3200000x1, .i32⟩
  | .hbm, ⟨71, _⟩ => ⟨S3200000x64, .f32⟩
  | .hbm, ⟨72, _⟩ => ⟨S3200000x1, .f32⟩
  | .hbm, ⟨73, _⟩ => ⟨S3200000x64, .f32⟩
  | .hbm, ⟨74, _⟩ => ⟨S3200000x64, .f32⟩
  | .hbm, ⟨75, _⟩ => ⟨S_, .f32⟩
  | .hbm, ⟨76, _⟩ => ⟨S50000x64, .f32⟩
  | .hbm, ⟨77, _⟩ => ⟨S3200000x1, .i32⟩
  | .hbm, ⟨78, _⟩ => ⟨S50000x64, .f32⟩
  | .hbm, ⟨79, _⟩ => ⟨S100000x64, .f32⟩
  | .hbm, ⟨80, _⟩ => ⟨S50000x64, .f32⟩
  | .hbm, ⟨81, _⟩ => ⟨S_, .i32⟩
  | .hbm, ⟨82, _⟩ => ⟨S4096, .i32⟩
  | .hbm, ⟨83, _⟩ => ⟨S4096, .i1⟩
  | .hbm, ⟨84, _⟩ => ⟨S_, .i32⟩
  | .hbm, ⟨85, _⟩ => ⟨S4096, .i32⟩
  | .hbm, ⟨86, _⟩ => ⟨S4096, .i32⟩
  | .hbm, ⟨87, _⟩ => ⟨S4096, .i32⟩
  | .hbm, ⟨88, _⟩ => ⟨S4096x1, .i32⟩
  | .hbm, ⟨89, _⟩ => ⟨S4096x64, .f32⟩
  | .hbm, ⟨90, _⟩ => ⟨S_, .i32⟩
  | .hbm, ⟨91, _⟩ => ⟨S4096, .i32⟩
  | .hbm, ⟨92, _⟩ => ⟨S4096, .i1⟩
  | .hbm, ⟨93, _⟩ => ⟨S_, .i32⟩
  | .hbm, ⟨94, _⟩ => ⟨S4096, .i32⟩
  | .hbm, ⟨95, _⟩ => ⟨S4096, .i32⟩
  | .hbm, ⟨96, _⟩ => ⟨S4096, .i32⟩
  | .hbm, ⟨97, _⟩ => ⟨S4096x1, .i32⟩
  | .hbm, ⟨98, _⟩ => ⟨S4096x64, .f32⟩
  | .hbm, ⟨99, _⟩ => ⟨S_, .i32⟩
  | .hbm, ⟨100, _⟩ => ⟨S4096, .i32⟩
  | .hbm, ⟨101, _⟩ => ⟨S4096, .i1⟩
  | .hbm, ⟨102, _⟩ => ⟨S_, .i32⟩
  | .hbm, ⟨103, _⟩ => ⟨S4096, .i32⟩
  | .hbm, ⟨104, _⟩ => ⟨S4096, .i32⟩
  | .hbm, ⟨105, _⟩ => ⟨S4096, .i32⟩
  | .hbm, ⟨106, _⟩ => ⟨S4096x1, .i32⟩
  | .hbm, ⟨107, _⟩ => ⟨S4096x64, .f32⟩
  | .hbm, ⟨108, _⟩ => ⟨S1x1, .f32⟩
  | .hbm, ⟨109, _⟩ => ⟨S_, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x1, .f32⟩
  | .local _ .vmem, ⟨23, _⟩ => ⟨S5000x1, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x1, .f32⟩
  | .local _ .vmem, ⟨33, _⟩ => ⟨S5000x1, .f32⟩
  | .local _ .vmem, ⟨34, _⟩ => ⟨S5000x64, .f32⟩
  | .local _ .vmem, ⟨35, _⟩ => ⟨S5000x64, .f32⟩
  | .local _ .vmem, ⟨36, _⟩ => ⟨S4096x64, .f32⟩
  | .local _ .vmem, ⟨37, _⟩ => ⟨S4096x64, .f32⟩
  | .local _ .vmem, ⟨38, _⟩ => ⟨S4096x64, .f32⟩
  | .local _ .vmem, ⟨39, _⟩ => ⟨S1x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_10 : Ref sig .tc := ⟨.hbm, 81, rfl⟩
abbrev main_v58 : Ref sig .tc := ⟨.hbm, 82, rfl⟩
abbrev main_v59 : Ref sig .tc := ⟨.hbm, 83, rfl⟩
abbrev main_c_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_14 : Ref sig .tc := ⟨.hbm, 99, rfl⟩
abbrev main_v72 : Ref sig .tc := ⟨.hbm, 100, rfl⟩
abbrev main_v73 : Ref sig .tc := ⟨.hbm, 101, rfl⟩
abbrev main_c_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35
abbrev cc4_sem0_0 : DmaSem sig := 36
abbrev cc4_sem1_0 : DmaSem sig := 37
abbrev cc4_sem2_0 : DmaSem sig := 38
abbrev cc4_sem3_0 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S4096x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S4096x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S4096x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  shapeCasts_S100000_S100000x1 : S100000.ShapeCasts S100000x1
  shapeCasts_S50000_S50000x1 : S50000.ShapeCasts S50000x1
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S_S50000x64 : S_.BroadcastsInDim S50000x64 (![] : Fin 0 → Fin S50000x64.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bcast_S_S4096 : S_.BroadcastsInDim S4096 (![] : Fin 0 → Fin S4096.rank)
  bcast_S4096_S4096x1_0 : S4096.BroadcastsInDim S4096x1 (![0] : Fin 1 → Fin S4096x1.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  shapeCasts_S4096_S4096x1 : S4096.ShapeCasts S4096x1
  reduces_S4096x1_S1 : S4096x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  gather_S50000x64_S3200000x1_S3200000x64_1_0_n_n_0_1_164_wf : GatherDims.WF S50000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S3200000x1_S3200000x64_1_0_n_n_0_1_164_wf : GatherDims.WF S100000x64 S3200000x1 S3200000x64 [1] [0] [] [0] [] 1 ![1, 64]
  scatter_S50000x64_S3200000x1_S3200000x64_1_0_0_1_wf : ScatterDims.WF S50000x64 S3200000x1 S3200000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .f32 = 32 ∨ (Rect.block (s := S50000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S4096x64.size a ≤ S4096x64.size a
  hwx4_0 : ∀ i : grid4.Coords, EltTy.bits .f32 = 32 ∨ (Rect.block (s := S4096x64) S4096x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4096x64.size a ≤ S4096x64.size a
  hwx4_1 : ∀ i : grid4.Coords, EltTy.bits .f32 = 32 ∨ (Rect.block (s := S4096x64) S4096x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S4096x64.size a ≤ S4096x64.size a
  hwx4_2 : ∀ i : grid4.Coords, EltTy.bits .f32 = 32 ∨ (Rect.block (s := S4096x64) S4096x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)

variable [Facts₀]

def gather_S50000x64_S3200000x1_S3200000x64_1_0_n_n_0_1_164 : GatherDims S50000x64 S3200000x1 S3200000x64 where
  offsetDims := [1]
  collapsedSliceDims := [0]
  operandBatchingDims := []
  startIndicesBatchingDims := []
  startIndexMap := [0]
  indexVectorDim := 1
  sliceSizes := ![1, 64]
  wf := gather_S50000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S50000x64_S3200000x1_S3200000x64_1_0_0_1 : ScatterDims S50000x64 S3200000x1 S3200000x64 where
  updateWindowDims := [1]
  insertedWindowDims := [0]
  scatterDimsToOperandDims := [0]
  indexVectorDim := 1
  wf := scatter_S50000x64_S3200000x1_S3200000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v56) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg1) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v1) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v57) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v64) S4096x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v71) S4096x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S4096x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S1x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S3200000 : Shape := ⟨1, ![3200000]⟩
abbrev S100000 : Shape := ⟨1, ![100000]⟩
abbrev S50000 : Shape := ⟨1, ![50000]⟩
abbrev S4096 : Shape := ⟨1, ![4096]⟩
abbrev S100000x1 : Shape := ⟨2, ![100000, 1]⟩
abbrev S50000x1 : Shape := ⟨2, ![50000, 1]⟩
abbrev S_ : Shape := ⟨0, ![]⟩
abbrev S3200000x1 : Shape := ⟨2, ![3200000, 1]⟩
abbrev S3200000x64 : Shape := ⟨2, ![3200000, 64]⟩
abbrev S4096x1 : Shape := ⟨2, ![4096, 1]⟩
abbrev S4096x64 : Shape := ⟨2, ![4096, 64]⟩

abbrev nBuf : Space → Nat
  | .hbm => 164
  | .vmem => 0
  | .smem => 0
  | _ => 0

abbrev hbmTy0_0 (i : Nat) : BufTy := match i % 128 with
  | 0 => ⟨S100000x64, .f32⟩
  | 1 => ⟨S50000x64, .f32⟩
  | 2 => ⟨S3200000, .i32⟩
  | 3 => ⟨S3200000, .i32⟩
  | 4 => ⟨S3200000, .f32⟩
  | 5 => ⟨S3200000, .f32⟩
  | 6 => ⟨S100000, .f32⟩
  | 7 => ⟨S50000, .f32⟩
  | 8 => ⟨S4096, .i32⟩
  | 9 => ⟨S4096, .i32⟩
  | 10 => ⟨S4096, .i32⟩
  | 11 => ⟨S100000x1, .f32⟩
  | 12 => ⟨S50000x1, .f32⟩
  | 13 => ⟨S_, .i32⟩
  | 14 => ⟨S3200000, .i32⟩
  | 15 => ⟨S3200000, .i1⟩
  | 16 => ⟨S_, .i32⟩
  | 17 => ⟨S3200000, .i32⟩
  | 18 => ⟨S3200000, .i32⟩
  | 19 => ⟨S3200000, .i32⟩
  | 20 => ⟨S3200000x1, .i32⟩
  | 21 => ⟨S3200000x64, .f32⟩
  | 22 => ⟨S3200000x1, .f32⟩
  | 23 => ⟨S3200000x64, .f32⟩
  | 24 => ⟨S3200000x64, .f32⟩
  | 25 => ⟨S_, .f32⟩
  | 26 => ⟨S100000x64, .f32⟩
  | 27 => ⟨S3200000x1, .i32⟩
  | 28 => ⟨S100000x64, .f32⟩
  | 29 => ⟨S100000x64, .f32⟩
  | 30 => ⟨S100000x64, .f32⟩
  | 31 => ⟨S100000x64, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000x64, .f32⟩
  | 41 => ⟨S3200000x1, .f32⟩
  | 42 => ⟨S3200000x64, .f32⟩
  | 43 => ⟨S3200000x64, .f32⟩
  | 44 => ⟨S_, .f32⟩
  | 45 => ⟨S50000x64, .f32⟩
  | 46 => ⟨S3200000x1, .i32⟩
  | 47 => ⟨S50000x64, .f32⟩
  | 48 => ⟨S50000x64, .f32⟩
  | 49 => ⟨S50000x64, .f32⟩
  | 50 => ⟨S50000x64, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000x64, .f32⟩
  | 60 => ⟨S3200000x1, .f32⟩
  | 61 => ⟨S3200000x64, .f32⟩
  | 62 => ⟨S3200000x64, .f32⟩
  | 63 => ⟨S_, .f32⟩
  | 64 => ⟨S100000x64, .f32⟩
  | 65 => ⟨S3200000x1, .i32⟩
  | 66 => ⟨S100000x64, .f32⟩
  | 67 => ⟨S100000x64, .f32⟩
  | 68 => ⟨S100000x64, .f32⟩
  | 69 => ⟨S100000x64, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S3200000x64, .f32⟩
  | 79 => ⟨S3200000x1, .f32⟩
  | 80 => ⟨S3200000x64, .f32⟩
  | 81 => ⟨S3200000x64, .f32⟩
  | 82 => ⟨S_, .f32⟩
  | 83 => ⟨S50000x64, .f32⟩
  | 84 => ⟨S3200000x1, .i32⟩
  | 85 => ⟨S50000x64, .f32⟩
  | 86 => ⟨S50000x64, .f32⟩
  | 87 => ⟨S50000x64, .f32⟩
  | 88 => ⟨S50000x64, .f32⟩
  | 89 => ⟨S100000x64, .f32⟩
  | 90 => ⟨S100000x64, .f32⟩
  | 91 => ⟨S50000x64, .f32⟩
  | 92 => ⟨S50000x64, .f32⟩
  | 93 => ⟨S_, .i32⟩
  | 94 => ⟨S4096, .i32⟩
  | 95 => ⟨S4096, .i1⟩
  | 96 => ⟨S_, .i32⟩
  | 97 => ⟨S4096, .i32⟩
  | 98 => ⟨S4096, .i32⟩
  | 99 => ⟨S4096, .i32⟩
  | 100 => ⟨S4096x1, .i32⟩
  | 101 => ⟨S4096x64, .f32⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S4096, .i32⟩
  | 109 => ⟨S4096x1, .i32⟩
  | 110 => ⟨S4096x64, .f32⟩
  | 111 => ⟨S_, .i32⟩
  | 112 => ⟨S4096, .i32⟩
  | 113 => ⟨S4096, .i1⟩
  | 114 => ⟨S_, .i32⟩
  | 115 => ⟨S4096, .i32⟩
  | 116 => ⟨S4096, .i32⟩
  | 117 => ⟨S4096, .i32⟩
  | 118 => ⟨S4096x1, .i32⟩
  | 119 => ⟨S4096x64, .f32⟩
  | 120 => ⟨S4096x64, .f32⟩
  | 121 => ⟨S_, .f32⟩
  | 122 => ⟨S4096, .f32⟩
  | 123 => ⟨S4096x64, .f32⟩
  | 124 => ⟨S_, .f32⟩
  | 125 => ⟨S4096, .f32⟩
  | 126 => ⟨S4096x64, .f32⟩
  | 127 => ⟨S_, .f32⟩
  | _ => ⟨S100000x64, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S4096x64, .f32⟩
  | 6 => ⟨S4096x64, .f32⟩
  | 7 => ⟨S4096x64, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S4096, .f32⟩
  | 16 => ⟨S4096, .f32⟩
  | 17 => ⟨S_, .f32⟩
  | 18 => ⟨S4096, .f32⟩
  | 19 => ⟨S4096, .f32⟩
  | 20 => ⟨S4096, .f32⟩
  | 21 => ⟨S4096, .f32⟩
  | 22 => ⟨S4096, .i1⟩
  | 23 => ⟨S4096, .f32⟩
  | 24 => ⟨S4096, .f32⟩
  | 25 => ⟨S4096, .f32⟩
  | 26 => ⟨S4096, .f32⟩
  | 27 => ⟨S4096, .f32⟩
  | 28 => ⟨S4096, .f32⟩
  | 29 => ⟨S4096, .f32⟩
  | 30 => ⟨S4096, .f32⟩
  | 31 => ⟨S_, .f32⟩
  | 32 => ⟨S_, .f32⟩
  | 33 => ⟨S_, .f32⟩
  | 34 => ⟨S_, .f32⟩
  | 35 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_7 : Ref sig .tc := ⟨.hbm, 70, rfl⟩
abbrev main_v50 : Ref sig .tc := ⟨.hbm, 71, rfl⟩
abbrev main_v51 : Ref sig .tc := ⟨.hbm, 72, rfl⟩
abbrev main_c_8 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_9 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_10 : Ref sig .tc := ⟨.hbm, 93, rfl⟩
abbrev main_v70 : Ref sig .tc := ⟨.hbm, 94, rfl⟩
abbrev main_v71 : Ref sig .tc := ⟨.hbm, 95, rfl⟩
abbrev main_c_11 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_12 : Ref sig .tc := ⟨.hbm, 102, rfl⟩
abbrev main_v77 : Ref sig .tc := ⟨.hbm, 103, rfl⟩
abbrev main_v78 : Ref sig .tc := ⟨.hbm, 104, rfl⟩
abbrev main_c_13 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_14 : Ref sig .tc := ⟨.hbm, 111, rfl⟩
abbrev main_v84 : Ref sig .tc := ⟨.hbm, 112, rfl⟩
abbrev main_v85 : Ref sig .tc := ⟨.hbm, 113, rfl⟩
abbrev main_c_15 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_16 : Ref sig .tc := ⟨.hbm, 121, rfl⟩
abbrev main_v92 : Ref sig .tc := ⟨.hbm, 122, rfl⟩
abbrev main_v93 : Ref sig .tc := ⟨.hbm, 123, rfl⟩
abbrev main_cst_17 : Ref sig .tc := ⟨.hbm, 124, rfl⟩
abbrev main_v94 : Ref sig .tc := ⟨.hbm, 125, rfl⟩
abbrev main_v95 : Ref sig .tc := ⟨.hbm, 126, rfl⟩
abbrev main_cst_18 : Ref sig .tc := ⟨.hbm, 127, rfl⟩
abbrev main_v96 : Ref sig .tc := ⟨.hbm, 128, rfl⟩
abbrev main_cst_19 : Ref sig .tc := ⟨.hbm, 129, rfl⟩
abbrev main_v97 : Ref sig .tc := ⟨.hbm, 130, rfl⟩
abbrev main_cst_20 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_21 : Ref sig .tc := ⟨.hbm, 136, rfl⟩
abbrev main_v102 : Ref sig .tc := ⟨.hbm, 137, rfl⟩
abbrev main_cst_22 : Ref sig .tc := ⟨.hbm, 138, rfl⟩
abbrev main_v103 : Ref sig .tc := ⟨.hbm, 139, rfl⟩
abbrev main_cst_23 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_call0_cst : Ref sig .tc := ⟨.hbm, 145, rfl⟩
abbrev main_call0_v0 : Ref sig .tc := ⟨.hbm, 146, rfl⟩
abbrev main_call0_v1 : Ref sig .tc := ⟨.hbm, 147, rfl⟩
abbrev main_call0_v2 : Ref sig .tc := ⟨.hbm, 148, rfl⟩
abbrev main_call0_v3 : Ref sig .tc := ⟨.hbm, 149, rfl⟩
abbrev main_call0_v4 : Ref sig .tc := ⟨.hbm, 150, rfl⟩
abbrev main_call0_v5 : Ref sig .tc := ⟨.hbm, 151, rfl⟩
abbrev main_call0_v6 : Ref sig .tc := ⟨.hbm, 152, rfl⟩
abbrev main_call0_v7 : Ref sig .tc := ⟨.hbm, 153, rfl⟩
abbrev main_call0_v8 : Ref sig .tc := ⟨.hbm, 154, rfl⟩
abbrev main_call0_v9 : Ref sig .tc := ⟨.hbm, 155, rfl⟩
abbrev main_call0_v10 : Ref sig .tc := ⟨.hbm, 156, rfl⟩
abbrev main_call0_v11 : Ref sig .tc := ⟨.hbm, 157, rfl⟩
abbrev main_v108 : Ref sig .tc := ⟨.hbm, 158, rfl⟩
abbrev main_cst_24 : Ref sig .tc := ⟨.hbm, 159, rfl⟩
abbrev main_v109 : Ref sig .tc := ⟨.hbm, 160, rfl⟩
abbrev main_cst_25 : Ref sig .tc := ⟨.hbm, 161, rfl⟩
abbrev main_v110 : Ref sig .tc := ⟨.hbm, 162, rfl⟩
abbrev main_v111 : Ref sig .tc := ⟨.hbm, 163, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S50000_S50000x1_0 : S50000.BroadcastsInDim S50000x1 (![0] : Fin 1 → Fin S50000x1.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  reducesTo_S4096x64_S_d0_1 : S4096x64.ReducesTo [0, 1] S_
  reducesTo_S4096_S_d0 : S4096.ReducesTo [0] S_
  gather_S50000x64_S3200000x1_S3200000x64_1_0_n_n_0_1_164_wf : GatherDims.WF S50000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S3200000x1_S3200000x64_1_0_n_n_0_1_164_wf : GatherDims.WF S100000x64 S3200000x1 S3200000x64 [1] [0] [] [0] [] 1 ![1, 64]
  scatter_S50000x64_S3200000x1_S3200000x64_1_0_0_1_wf : ScatterDims.WF S50000x64 S3200000x1 S3200000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]

variable [Facts₀]

def gather_S50000x64_S3200000x1_S3200000x64_1_0_n_n_0_1_164 : GatherDims S50000x64 S3200000x1 S3200000x64 where
  offsetDims := [1]
  collapsedSliceDims := [0]
  operandBatchingDims := []
  startIndicesBatchingDims := []
  startIndexMap := [0]
  indexVectorDim := 1
  sliceSizes := ![1, 64]
  wf := gather_S50000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S50000x64_S3200000x1_S3200000x64_1_0_0_1 : ScatterDims S50000x64 S3200000x1 S3200000x64 where
  updateWindowDims := [1]
  insertedWindowDims := [0]
  scatterDimsToOperandDims := [0]
  indexVectorDim := 1
  wf := scatter_S50000x64_S3200000x1_S3200000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

class Facts : Prop extends Facts₀ where

variable [Facts]
-- ==== Proof.KernelRun.lean ====
/-
  The idealized kernel program's run with every buffer named.

  @main is nine segments: four stretches of host operations and five kernel regions. The buffer contents
  at each segment boundary are a fold through @main from the launch memory (a host stretch applies its
  operations; a region leaves its input arrays as entered and each output array at what the grid points'
  write-backs leave). Every weakly fair execution terminates, and in every final state each unscoped
  buffer of a core holds the last boundary's contents. The frame claim reads only the argument arrays
  off that state; a value claim reads the result buffer off the same state, so the run is stated here
  with the whole final valuation.
-/
import proofs.«161199_j73237782331839_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and in
    every final state each unscoped buffer of each core holds the contents the fold through @main's nine
    segments gives it (the last boundary's valuation). -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The result buffer and the argument arrays are unscoped, so the final state holds them at the last
    boundary's contents; the arguments' are the launch contents (no segment writes an argument). -/
theorem run_result : θ_run defs (onTc (τ := τ) (main (F := F))) ⟨m, fun _ => 0, ρ⟩ (fun r => ∀ c : Dev nD,
      r.2.mem ((c.tc : Thread nD τ).loc main_v80) = W9 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v80 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)
    (run_held m ρ)

end Cert.KernelIdeal.KRun

end
-- ==== Proof.Chain0.lean ====
/-
  The buffer contents when the first two kernel regions are entered, read back to the launch memory.

  The first stretch of host operations builds, from the argument arrays alone, the two degree columns
  (each degree vector recast as a one-column matrix) and the two first-layer sparse products: the rows of
  one embedding table gathered along one index vector, scaled per edge, and summed into the rows the other
  index vector names, starting from zeros. The reference program builds the same two sparse products by the
  same operations on the same arguments, so each is the reference's stage of that name; no argument array is
  written by any host operation.
-/
import proofs.«161199_j73237782331839_1_alg».proof.Proof.Gen.KernelIdeal.Frame
import proofs.«161199_j73237782331839_1_alg».proof.Proof.Gen.ReferenceIdeal.Read
import Idealize.ShloMosaic.Lib.StableHlo.Run

set_option maxRecDepth 16384

noncomputable section

namespace Cert.KernelIdeal.Chain0

open Cert.KernelIdeal Cert.KernelIdeal.Gen
open Idealize.ShloMosaic Idealize.ShloMosaic.TcCoe Idealize.SL.Sem Idealize.ShloMosaic.StableHlo
open Cert.ReferenceIdeal.Read (val_main_v14 val_main_v30)

variable (m : (ℓ : Loc nD τ sig) → Buf (Elt Ideal) ℓ) (ρ : Dev nD → PrngReg) (c : Dev nD)

/-- Argument 0 is not written by the first host stretch. -/
theorem W1_arg0 : W1 m ρ c (Proc.devRef .tc main_arg0) = (m ((c : Thread nD τ).loc main_arg0)) := by
  show StableHlo.after hostOps0 (W0 m ρ c) (Proc.devRef .tc main_arg0) = _
  after_results <;> rfl

/-- Argument 1 is not written by the first host stretch. -/
theorem W1_arg1 : W1 m ρ c (Proc.devRef .tc main_arg1) = (m ((c : Thread nD τ).loc main_arg1)) := by
  show StableHlo.after hostOps0 (W0 m ρ c) (Proc.devRef .tc main_arg1) = _
  after_results <;> rfl

/-- Argument 2 is not written by the first host stretch. -/
theorem W1_arg2 : W1 m ρ c (Proc.devRef .tc main_arg2) = (m ((c : Thread nD τ).loc main_arg2)) := by
  show StableHlo.after hostOps0 (W0 m ρ c) (Proc.devRef .tc main_arg2) = _
  after_results <;> rfl

/-- Argument 3 is not written by the first host stretch. -/
theorem W1_arg3 : W1 m ρ c (Proc.devRef .tc main_arg3) = (m ((c : Thread nD τ).loc main_arg3)) := by
  show StableHlo.after hostOps0 (W0 m ρ c) (Proc.devRef .tc main_arg3) = _
  after_results <;> rfl

/-- Argument 4 is not written by the first host stretch. -/
theorem W1_arg4 : W1 m ρ c (Proc.devRef .tc main_arg4) = (m ((c : Thread nD τ).loc main_arg4)) := by
  show StableHlo.after hostOps0 (W0 m ρ c) (Proc.devRef .tc main_arg4) = _
  after_results <;> rfl

/-- Argument 5 is not written by the first host stretch. -/
theorem W1_arg5 : W1 m ρ c (Proc.devRef .tc main_arg5) = (m ((c : Thread nD τ).loc main_arg5)) := by
  show StableHlo.after hostOps0 (W0 m ρ c) (Proc.devRef .tc main_arg5) = _
  after_results <;> rfl

/-- Argument 8 is not written by the first host stretch. -/
theorem W1_arg8 : W1 m ρ c (Proc.devRef .tc main_arg8) = (m ((c : Thread nD τ).loc main_arg8)) := by
  show StableHlo.after hostOps0 (W0 m ρ c) (Proc.devRef .tc main_arg8) = _
  after_results <;> rfl

/-- Argument 9 is not written by the first host stretch. -/
theorem W1_arg9 : W1 m ρ c (Proc.devRef .tc main_arg9) = (m ((c : Thread nD τ).loc main_arg9)) := by
  show StableHlo.after hostOps0 (W0 m ρ c) (Proc.devRef .tc main_arg9) = _
  after_results <;> rfl

/-- Argument 10 is not written by the first host stretch. -/
theorem W1_arg10 : W1 m ρ c (Proc.devRef .tc main_arg10) = (m ((c : Thread nD τ).loc main_arg10)) := by
  show StableHlo.after hostOps0 (W0 m ρ c) (Proc.devRef .tc main_arg10) = _
  after_results <;> rfl

/-- The user-side degree column: the degree vector recast to one column. -/
theorem W1_v0 : W1 m ρ c (Proc.devRef .tc main_v0) = (shapeCast S100000x1 (m ((c : Thread nD τ).loc main_arg6)) shapeCasts_S100000_S100000x1) := by
  show StableHlo.after hostOps0 (W0 m ρ c) (Proc.devRef .tc main_v0) = _
  after_results
  rfl

/-- The item-side degree column. -/
theorem W1_v1 : W1 m ρ c (Proc.devRef .tc main_v1) = (shapeCast S50000x1 (m ((c : Thread nD τ).loc main_arg7)) shapeCasts_S50000_S50000x1) := by
  show StableHlo.after hostOps0 (W0 m ρ c) (Proc.devRef .tc main_v1) = _
  after_results
  rfl

set_option maxHeartbeats 8000000 in
/-- The first-layer sparse product into the user rows: item rows gathered, scaled per edge, summed per user. -/
theorem W1_v14 : W1 m ρ c (Proc.devRef .tc main_v14) = (val_main_v14 (F := Ideal) (m ((c : Thread nD τ).loc main_arg1)) (m ((c : Thread nD τ).loc main_arg2)) (m ((c : Thread nD τ).loc main_arg3)) (m ((c : Thread nD τ).loc main_arg4))) := by
  show StableHlo.after hostOps0 (W0 m ρ c) (Proc.devRef .tc main_v14) = _
  after_results_simp
  rfl

set_option maxHeartbeats 8000000 in
/-- The first-layer sparse product into the item rows: user rows gathered, scaled per edge, summed per item. -/
theorem W1_v27 : W1 m ρ c (Proc.devRef .tc main_v27) = (val_main_v30 (F := Ideal) (m ((c : Thread nD τ).loc main_arg0)) (m ((c : Thread nD τ).loc main_arg2)) (m ((c : Thread nD τ).loc main_arg3)) (m ((c : Thread nD τ).loc main_arg5))) := by
  show StableHlo.after hostOps0 (W0 m ρ c) (Proc.devRef .tc main_v27) = _
  after_results_simp
  rfl

end Cert.KernelIdeal.Chain0

end
-- ==== Proof.CombineValue0.lean ====
import proofs.«161199_j73237782331839_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CombineValue0

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

theorem zeros2 : (![0, 0] : Fin 2 → Nat) = fun _ => 0 := funext fun a => by fin_cases a <;> rfl

/-- A column [a,1] broadcast along the lanes to [a,b] reads, at (p, l), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (l : Fin b) :
    broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

/-- The whole-array result: entry (r, l) is spmm (r, l) + embed (r, l) * degree r. -/
abbrev combined (hb : S100000x1.BroadcastsInDim S100000x64 (![0, 1] : Fin 2 → Fin S100000x64.rank))
    (embed spmm : FVec Ideal S100000x64 .f32) (deg : FVec Ideal S100000x1 .f32) : FVec Ideal S100000x64 .f32 :=
  addf spmm (mulf embed (broadcastInDim S100000x64 ![0, 1] hb deg))

/-- The row of the degree column that an entry of the result reads. -/
abbrev degRow (i : S100000x64.Idx) : S100000x1.Idx := ix2 (i 0) (0 : Fin 1)

theorem combined_apply (hb) (embed spmm : FVec Ideal S100000x64 .f32) (deg : FVec Ideal S100000x1 .f32) (i : S100000x64.Idx) :
    combined hb embed spmm deg i = spmm i + embed i * deg (degRow i) := by
  show spmm i + embed i * broadcastInDim S100000x64 ![0, 1] hb deg i = _
  rw [broadcastInDim_apply _ hb deg i (degRow i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]

/-- The body's payload: the shape casts to the same shape are identities. -/
theorem payload_eq (d : Vec Ideal S5000x1 .f32) (s e : Vec Ideal S5000x64 .f32) :
    k0_pay1 d s e = addf s (mulf e (broadcastTo S5000x64 d broadcasts_S5000x1_S5000x64)) := by
  unfold k0_pay1
  simp only [shapeCast_self]

/-- The payload at an entry (p, l) of the block: spmm (p, l) + embed (p, l) * degree p. -/
theorem payload_apply (d : Vec Ideal S5000x1 .f32) (s e : Vec Ideal S5000x64 .f32) (y : S5000x64.Idx) :
    k0_pay1 d s e y = s y + e y * d (ix2 (y 0) (0 : Fin 1)) := by
  rw [payload_eq]
  show s y + e y * broadcastTo S5000x64 d broadcasts_S5000x1_S5000x64 y = _
  obtain ⟨p, l, rfl⟩ : ∃ (p : Fin 5000) (l : Fin 64), y = ix2 p l := ⟨y 0, y 1, eq_ix2 y⟩
  rw [broadcastTo_a1_ab_apply]

/-- The printed index maps over the 20 points: every window's block of rows is the output's, on the lane axis
    every window has one block, and the output's block of rows is the point's number. -/
theorem idx_facts : ∀ t : Fin cfg0.N, win0_0.index t (0 : Fin 2) = win0_3.index t (0 : Fin 2)
    ∧ win0_1.index t (0 : Fin 2) = win0_3.index t (0 : Fin 2)
    ∧ win0_2.index t (0 : Fin 2) = win0_3.index t (0 : Fin 2)
    ∧ win0_0.index t (1 : Fin 2) = 0 ∧ win0_1.index t (1 : Fin 2) = 0
    ∧ win0_2.index t (1 : Fin 2) = 0 ∧ win0_3.index t (1 : Fin 2) = 0 :=
  (by decide +kernel : ∀ t : Fin grid0.N, _)

/-- Every block of 5000 rows is some point's. -/
theorem idx_onto : ∀ q : Fin 20, ∃ t : Fin cfg0.N, win0_3.index t = ![q.val, 0] :=
  (by decide +kernel : ∀ q : Fin 20, ∃ t : Fin grid0.N, win0_3.index t = ![q.val, 0])

/-- Window blocks read off their arrays. -/
theorem embedBlock_apply (c : Dev nD) (t : Fin cfg0.N) (y : S5000x64.Idx) :
    iblk0 V c 0 t y = (V c main_arg0 : FVec Ideal S100000x64 .f32) (((cfg0.win 0).blk t).view.emb y) := by
  unfold iblk0; rfl
theorem spmmBlock_apply (c : Dev nD) (t : Fin cfg0.N) (y : S5000x64.Idx) :
    iblk0 V c 1 t y = (V c main_v14 : FVec Ideal S100000x64 .f32) (((cfg0.win 1).blk t).view.emb y) := by
  unfold iblk0; rfl
theorem degBlock_apply (c : Dev nD) (t : Fin cfg0.N) (y : S5000x1.Idx) :
    iblk0 V c 2 t y = (V c main_v0 : FVec Ideal S100000x1 .f32) (((cfg0.win 2).blk t).view.emb y) := by
  unfold iblk0; rfl

/-- Where the blocks of point t sit in their arrays: the 64-lane windows at the output's entry, the degree
    column at the output entry's row. -/
theorem embedBlock_emb (t : Fin cfg0.N) (y : S5000x64.Idx) :
    ((cfg0.win 0).blk t).view.emb y = ((cfg0.win 3).blk t).view.emb y := by
  obtain ⟨e0, e1, e2, z0, z1, z2, z3⟩ := idx_facts t
  funext a; apply Fin.ext
  match a with
  | ⟨0, _⟩ => show win0_0.index t (0 : Fin 2) * 5000 + 1 * (y 0).val = win0_3.index t (0 : Fin 2) * 5000 + 1 * (y 0).val; omega
  | ⟨1, _⟩ => show win0_0.index t (1 : Fin 2) * 64 + 1 * (y 1).val = win0_3.index t (1 : Fin 2) * 64 + 1 * (y 1).val; omega
theorem spmmBlock_emb (t : Fin cfg0.N) (y : S5000x64.Idx) :
    ((cfg0.win 1).blk t).view.emb y = ((cfg0.win 3).blk t).view.emb y := by
  obtain ⟨e0, e1, e2, z0, z1, z2, z3⟩ := idx_facts t
  funext a; apply Fin.ext
  match a with
  | ⟨0, _⟩ => show win0_1.index t (0 : Fin 2) * 5000 + 1 * (y 0).val = win0_3.index t (0 : Fin 2) * 5000 + 1 * (y 0).val; omega
  | ⟨1, _⟩ => show win0_1.index t (1 : Fin 2) * 64 + 1 * (y 1).val = win0_3.index t (1 : Fin 2) * 64 + 1 * (y 1).val; omega
theorem degBlock_emb (t : Fin cfg0.N) (y : S5000x64.Idx) :
    ((cfg0.win 2).blk t).view.emb (ix2 (y 0) (0 : Fin 1)) = degRow (((cfg0.win 3).blk t).view.emb y) := by
  obtain ⟨e0, e1, e2, z0, z1, z2, z3⟩ := idx_facts t
  funext a; apply Fin.ext
  match a with
  | ⟨0, _⟩ => show win0_2.index t (0 : Fin 2) * 5000 + 1 * (y 0).val = win0_3.index t (0 : Fin 2) * 5000 + 1 * (y 0).val; omega
  | ⟨1, _⟩ => show win0_2.index t (1 : Fin 2) * 1 + 1 * 0 = 0; omega

/-- What point t writes back is its block of rows of the whole-array result. -/
theorem flushed_eq (c : Dev nD) (hb : S100000x1.BroadcastsInDim S100000x64 (![0, 1] : Fin 2 → Fin S100000x64.rank))
    (t : Fin cfg0.N) :
    (dat0 V c).flushed 3 t = ((cfg0.win 3).blk t).view.read (Elt Ideal)
      (combined hb (V c main_arg0) (V c main_v14) (V c main_v0)) := by
  show (cfg0.win 3).cut (grid0.coords t) ((dat0 V c).after 3 t) = _
  rw [after0_3]
  unfold out0_3
  rw [View.canon_unit_zero zeros2]
  simp only [View.ld_unit_zero (S := S5000x64) zeros2, View.ld_unit_zero (S := S5000x1) zeros2]
  funext y
  show k0_pay1 (iblk0 V c 2 t) (iblk0 V c 1 t) (iblk0 V c 0 t) y
    = combined hb (V c main_arg0) (V c main_v14) (V c main_v0) (((cfg0.win 3).blk t).view.emb y)
  rw [payload_apply, combined_apply, embedBlock_apply, spmmBlock_apply, degBlock_apply, embedBlock_emb, spmmBlock_emb,
    degBlock_emb]

/-- An entry of the array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v28).slice (win0_3.rect t)).set ↔ _
  rw [View.set_slice_whole, Rect.mem_set_unit]
  exact Iff.rfl

/-- Row r lies in the block of point r / 5000: the blocks cover the array. -/
theorem rows_covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The array after the region: spmm + embed * degree, entry by entry. -/
theorem final0 (c : Dev nD) (hb : S100000x1.BroadcastsInDim S100000x64 (![0, 1] : Fin 2 → Fin S100000x64.rank)) :
    (dat0 V c).arrAt 3 cfg0.N
      = (addf (V c main_v14 : FVec Ideal S100000x64 .f32) (mulf (V c main_arg0 : FVec Ideal S100000x64 .f32)
          (broadcastInDim S100000x64 ![0, 1] hb (V c main_v0 : FVec Ideal S100000x1 .f32))) : FVec Ideal S100000x64 .f32) :=
  (dat0 V c).arrAt_eq_of_cover 3 (combined hb (V c main_arg0) (V c main_v14) (V c main_v0))
    (fun t _ => flushed_eq V c hb t) rows_covered

end Cert.KernelIdeal.CombineValue0

end
-- ==== Proof.CombineValue1.lean ====
import proofs.«161199_j73237782331839_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CombineValue1

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

theorem zeros2 : (![0, 0] : Fin 2 → Nat) = fun _ => 0 := funext fun a => by fin_cases a <;> rfl

/-- A column [a,1] broadcast along the lanes to [a,b] reads, at (p, l), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (l : Fin b) :
    broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

/-- The whole-array result: entry (r, l) is spmm (r, l) + embed (r, l) * degree r. -/
abbrev combined (hb : S50000x1.BroadcastsInDim S50000x64 (![0, 1] : Fin 2 → Fin S50000x64.rank))
    (embed spmm : FVec Ideal S50000x64 .f32) (deg : FVec Ideal S50000x1 .f32) : FVec Ideal S50000x64 .f32 :=
  addf spmm (mulf embed (broadcastInDim S50000x64 ![0, 1] hb deg))

/-- The row of the degree column that an entry of the result reads. -/
abbrev degRow (i : S50000x64.Idx) : S50000x1.Idx := ix2 (i 0) (0 : Fin 1)

theorem combined_apply (hb) (embed spmm : FVec Ideal S50000x64 .f32) (deg : FVec Ideal S50000x1 .f32) (i : S50000x64.Idx) :
    combined hb embed spmm deg i = spmm i + embed i * deg (degRow i) := by
  show spmm i + embed i * broadcastInDim S50000x64 ![0, 1] hb deg i = _
  rw [broadcastInDim_apply _ hb deg i (degRow i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])]

/-- The body's payload: the shape casts to the same shape are identities. -/
theorem payload_eq (d : Vec Ideal S5000x1 .f32) (s e : Vec Ideal S5000x64 .f32) :
    k1_pay1 d s e = addf s (mulf e (broadcastTo S5000x64 d broadcasts_S5000x1_S5000x64)) := by
  unfold k1_pay1
  simp only [shapeCast_self]

/-- The payload at an entry (p, l) of the block: spmm (p, l) + embed (p, l) * degree p. -/
theorem payload_apply (d : Vec Ideal S5000x1 .f32) (s e : Vec Ideal S5000x64 .f32) (y : S5000x64.Idx) :
    k1_pay1 d s e y = s y + e y * d (ix2 (y 0) (0 : Fin 1)) := by
  rw [payload_eq]
  show s y + e y * broadcastTo S5000x64 d broadcasts_S5000x1_S5000x64 y = _
  obtain ⟨p, l, rfl⟩ : ∃ (p : Fin 5000) (l : Fin 64), y = ix2 p l := ⟨y 0, y 1, eq_ix2 y⟩
  rw [broadcastTo_a1_ab_apply]

/-- The printed index maps over the 10 points: every window's block of rows is the output's, on the lane axis
    every window has one block, and the output's block of rows is the point's number. -/
theorem idx_facts : ∀ t : Fin cfg1.N, win1_0.index t (0 : Fin 2) = win1_3.index t (0 : Fin 2)
    ∧ win1_1.index t (0 : Fin 2) = win1_3.index t (0 : Fin 2)
    ∧ win1_2.index t (0 : Fin 2) = win1_3.index t (0 : Fin 2)
    ∧ win1_0.index t (1 : Fin 2) = 0 ∧ win1_1.index t (1 : Fin 2) = 0
    ∧ win1_2.index t (1 : Fin 2) = 0 ∧ win1_3.index t (1 : Fin 2) = 0 :=
  (by decide +kernel : ∀ t : Fin grid1.N, _)

/-- Every block of 5000 rows is some point's. -/
theorem idx_onto : ∀ q : Fin 10, ∃ t : Fin cfg1.N, win1_3.index t = ![q.val, 0] :=
  (by decide +kernel : ∀ q : Fin 10, ∃ t : Fin grid1.N, win1_3.index t = ![q.val, 0])

/-- Window blocks read off their arrays. -/
theorem embedBlock_apply (c : Dev nD) (t : Fin cfg1.N) (y : S5000x64.Idx) :
    iblk1 V c 0 t y = (V c main_arg1 : FVec Ideal S50000x64 .f32) (((cfg1.win 0).blk t).view.emb y) := by
  unfold iblk1; rfl
theorem spmmBlock_apply (c : Dev nD) (t : Fin cfg1.N) (y : S5000x64.Idx) :
    iblk1 V c 1 t y = (V c main_v27 : FVec Ideal S50000x64 .f32) (((cfg1.win 1).blk t).view.emb y) := by
  unfold iblk1; rfl
theorem degBlock_apply (c : Dev nD) (t : Fin cfg1.N) (y : S5000x1.Idx) :
    iblk1 V c 2 t y = (V c main_v1 : FVec Ideal S50000x1 .f32) (((cfg1.win 2).blk t).view.emb y) := by
  unfold iblk1; rfl

/-- Where the blocks of point t sit in their arrays: the 64-lane windows at the output's entry, the degree
    column at the output entry's row. -/
theorem embedBlock_emb (t : Fin cfg1.N) (y : S5000x64.Idx) :
    ((cfg1.win 0).blk t).view.emb y = ((cfg1.win 3).blk t).view.emb y := by
  obtain ⟨e0, e1, e2, z0, z1, z2, z3⟩ := idx_facts t
  funext a; apply Fin.ext
  match a with
  | ⟨0, _⟩ => show win1_0.index t (0 : Fin 2) * 5000 + 1 * (y 0).val = win1_3.index t (0 : Fin 2) * 5000 + 1 * (y 0).val; omega
  | ⟨1, _⟩ => show win1_0.index t (1 : Fin 2) * 64 + 1 * (y 1).val = win1_3.index t (1 : Fin 2) * 64 + 1 * (y 1).val; omega
theorem spmmBlock_emb (t : Fin cfg1.N) (y : S5000x64.Idx) :
    ((cfg1.win 1).blk t).view.emb y = ((cfg1.win 3).blk t).view.emb y := by
  obtain ⟨e0, e1, e2, z0, z1, z2, z3⟩ := idx_facts t
  funext a; apply Fin.ext
  match a with
  | ⟨0, _⟩ => show win1_1.index t (0 : Fin 2) * 5000 + 1 * (y 0).val = win1_3.index t (0 : Fin 2) * 5000 + 1 * (y 0).val; omega
  | ⟨1, _⟩ => show win1_1.index t (1 : Fin 2) * 64 + 1 * (y 1).val = win1_3.index t (1 : Fin 2) * 64 + 1 * (y 1).val; omega
theorem degBlock_emb (t : Fin cfg1.N) (y : S5000x64.Idx) :
    ((cfg1.win 2).blk t).view.emb (ix2 (y 0) (0 : Fin 1)) = degRow (((cfg1.win 3).blk t).view.emb y) := by
  obtain ⟨e0, e1, e2, z0, z1, z2, z3⟩ := idx_facts t
  funext a; apply Fin.ext
  match a with
  | ⟨0, _⟩ => show win1_2.index t (0 : Fin 2) * 5000 + 1 * (y 0).val = win1_3.index t (0 : Fin 2) * 5000 + 1 * (y 0).val; omega
  | ⟨1, _⟩ => show win1_2.index t (1 : Fin 2) * 1 + 1 * 0 = 0; omega

/-- What point t writes back is its block of rows of the whole-array result. -/
theorem flushed_eq (c : Dev nD) (hb : S50000x1.BroadcastsInDim S50000x64 (![0, 1] : Fin 2 → Fin S50000x64.rank))
    (t : Fin cfg1.N) :
    (dat1 V c).flushed 3 t = ((cfg1.win 3).blk t).view.read (Elt Ideal)
      (combined hb (V c main_arg1) (V c main_v27) (V c main_v1)) := by
  show (cfg1.win 3).cut (grid1.coords t) ((dat1 V c).after 3 t) = _
  rw [after1_3]
  unfold out1_3
  rw [View.canon_unit_zero zeros2]
  simp only [View.ld_unit_zero (S := S5000x64) zeros2, View.ld_unit_zero (S := S5000x1) zeros2]
  funext y
  show k1_pay1 (iblk1 V c 2 t) (iblk1 V c 1 t) (iblk1 V c 0 t) y
    = combined hb (V c main_arg1) (V c main_v27) (V c main_v1) (((cfg1.win 3).blk t).view.emb y)
  rw [payload_apply, combined_apply, embedBlock_apply, spmmBlock_apply, degBlock_apply, embedBlock_emb, spmmBlock_emb,
    degBlock_emb]

/-- An entry of the array is in point t's block iff each coordinate is in the block's range on its axis. -/
theorem mem_blk (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v29).slice (win1_3.rect t)).set ↔ _
  rw [View.set_slice_whole, Rect.mem_set_unit]
  exact Iff.rfl

/-- Row r lies in the block of point r / 5000: the blocks cover the array. -/
theorem rows_covered (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The array after the region: spmm + embed * degree, entry by entry. -/
theorem final1 (c : Dev nD) (hb : S50000x1.BroadcastsInDim S50000x64 (![0, 1] : Fin 2 → Fin S50000x64.rank)) :
    (dat1 V c).arrAt 3 cfg1.N
      = (addf (V c main_v27 : FVec Ideal S50000x64 .f32) (mulf (V c main_arg1 : FVec Ideal S50000x64 .f32)
          (broadcastInDim S50000x64 ![0, 1] hb (V c main_v1 : FVec Ideal S50000x1 .f32))) : FVec Ideal S50000x64 .f32) :=
  (dat1 V c).arrAt_eq_of_cover 3 (combined hb (V c main_arg1) (V c main_v27) (V c main_v1))
    (fun t _ => flushed_eq V c hb t) rows_covered

end Cert.KernelIdeal.CombineValue1

end
-- ==== Proof.LibColumnCast.lean ====
import Idealize.ShloMosaic.Lib.Pipeline.Value
import Idealize.ShloMosaic.Lib.ValueIdx
import Idealize.ShloMosaic.Lib.ValueLayout
import Idealize.ShloMosaic.PureOps.ShapeOps

namespace Cert.ColumnForms

open Idealize.ShloMosaic Idealize.ShloMosaic.ValueIdx

/-- A vector of extent `n` made a column `[n, 1]` by a shape cast, or by a broadcast that sends its one axis to the
    rows, is the same array: both read the vector at the row. Entry `(r, 0)` of the column has row-major position
    `r * 1 + 0 = r`, the position of `r` in the vector; and the broadcast reads the operand at the row coordinate
    (at `0` when the extent is one, where the row coordinate is `0` too). -/
theorem reshape_col_eq_bcast {α : Type} (n : Nat) (x : (⟨1, ![n]⟩ : Shape).Idx → α)
    (hc : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x hc = broadcastInDim ⟨2, ![n, 1]⟩ ![0] hb x := by
  funext j
  have h0 : (j 0).val < n := idx2_lt0 j
  have h1 : (j 1).val < 1 := idx2_lt1 j
  refine (shapeCast_apply x hc j (ix1 (j 0)) ?_).trans (broadcastInDim_apply ![0] hb x j (ix1 (j 0)) ?_).symm
  · rw [Shape.rowMajor_val_one, Shape.rowMajor_val_two]
    show (j 0).val = (j 0).val * 1 + (j 1).val
    omega
  · intro a
    match a with
    | ⟨0, _⟩ =>
      show (j 0).val = if n = 1 then 0 else (j 0).val
      split <;> omega

end Cert.ColumnForms
-- ==== Proof.Chain1.lean ====
/-
  The buffer contents after each of the two first-layer kernel regions.

  A region leaves its input arrays as it found them and its output array at what the grid points wrote back; every
  other buffer is untouched. The first-layer output is, row by row, the sparse product plus the embedding row scaled
  by the row's degree — and the degree column, whether made by recasting the degree vector to one column (the kernel's
  host side) or by broadcasting it along a new unit axis (the reference), reads the vector at the row. So each
  first-layer output array is the reference's first-layer stage of the same arguments.
-/
import proofs.«161199_j73237782331839_1_alg».proof.Proof.Chain0
import proofs.«161199_j73237782331839_1_alg».proof.Proof.CombineValue0
import proofs.«161199_j73237782331839_1_alg».proof.Proof.CombineValue1
import proofs.«161199_j73237782331839_1_alg».proof.Proof.LibColumnCast
import Idealize.ShloMosaic.Lib.Pipeline.Value

set_option maxRecDepth 16384

noncomputable section

namespace Cert.KernelIdeal.Chain1

open Cert.KernelIdeal Cert.KernelIdeal.Gen
open Idealize.ShloMosaic Idealize.ShloMosaic.TcCoe Idealize.SL.Sem Idealize.ShloMosaic.StableHlo
open Cert.ReferenceIdeal.Read (val_main_v0 val_main_v1 val_main_v14 val_main_v30 val_main_v17 val_main_v33)

variable (m : (ℓ : Loc nD τ sig) → Buf (Elt Ideal) ℓ) (ρ : Dev nD → PrngReg) (c : Dev nD)

/-- The user-side degree column either way: recast to one column, or broadcast along a new unit axis, it reads the
    degree vector at the row. -/
theorem col_user (x : (⟨S100000, .f32⟩ : BufTy).Contents (Elt Ideal)) :
    shapeCast S100000x1 x shapeCasts_S100000_S100000x1 = val_main_v0 (F := Ideal) x := by
  show shapeCast S100000x1 x shapeCasts_S100000_S100000x1
    = broadcastInDim Cert.ReferenceIdeal.S100000x1 ![0] Cert.ReferenceIdeal.Facts₀.bcast_S100000_S100000x1_0 x
  exact Cert.ColumnForms.reshape_col_eq_bcast 100000 x _ _

/-- The item-side degree column either way. -/
theorem col_item (x : (⟨S50000, .f32⟩ : BufTy).Contents (Elt Ideal)) :
    shapeCast S50000x1 x shapeCasts_S50000_S50000x1 = val_main_v1 (F := Ideal) x := by
  show shapeCast S50000x1 x shapeCasts_S50000_S50000x1
    = broadcastInDim Cert.ReferenceIdeal.S50000x1 ![0] Cert.ReferenceIdeal.Facts₀.bcast_S50000_S50000x1_0 x
  exact Cert.ColumnForms.reshape_col_eq_bcast 50000 x _ _

/-! ## After the user-side first-layer region -/

theorem W2_arg1 : W2 m ρ c (Proc.devRef .tc main_arg1) = (m ((c : Thread nD τ).loc main_arg1)) :=
  (W2_of_ne m ρ c main_arg1 (by decide)).trans (Chain0.W1_arg1 m ρ c)
theorem W2_v27 : W2 m ρ c (Proc.devRef .tc main_v27) = (val_main_v30 (F := Ideal) (m ((c : Thread nD τ).loc main_arg0)) (m ((c : Thread nD τ).loc main_arg2)) (m ((c : Thread nD τ).loc main_arg3)) (m ((c : Thread nD τ).loc main_arg5))) :=
  (W2_of_ne m ρ c main_v27 (by decide)).trans (Chain0.W1_v27 m ρ c)
theorem W2_v1 : W2 m ρ c (Proc.devRef .tc main_v1) = (shapeCast S50000x1 (m ((c : Thread nD τ).loc main_arg7)) shapeCasts_S50000_S50000x1) :=
  (W2_of_ne m ρ c main_v1 (by decide)).trans (Chain0.W1_v1 m ρ c)
theorem W2_arg2 : W2 m ρ c (Proc.devRef .tc main_arg2) = (m ((c : Thread nD τ).loc main_arg2)) :=
  (W2_of_ne m ρ c main_arg2 (by decide)).trans (Chain0.W1_arg2 m ρ c)
theorem W2_arg3 : W2 m ρ c (Proc.devRef .tc main_arg3) = (m ((c : Thread nD τ).loc main_arg3)) :=
  (W2_of_ne m ρ c main_arg3 (by decide)).trans (Chain0.W1_arg3 m ρ c)
theorem W2_arg4 : W2 m ρ c (Proc.devRef .tc main_arg4) = (m ((c : Thread nD τ).loc main_arg4)) :=
  (W2_of_ne m ρ c main_arg4 (by decide)).trans (Chain0.W1_arg4 m ρ c)
theorem W2_arg5 : W2 m ρ c (Proc.devRef .tc main_arg5) = (m ((c : Thread nD τ).loc main_arg5)) :=
  (W2_of_ne m ρ c main_arg5 (by decide)).trans (Chain0.W1_arg5 m ρ c)
theorem W2_arg8 : W2 m ρ c (Proc.devRef .tc main_arg8) = (m ((c : Thread nD τ).loc main_arg8)) :=
  (W2_of_ne m ρ c main_arg8 (by decide)).trans (Chain0.W1_arg8 m ρ c)
theorem W2_arg9 : W2 m ρ c (Proc.devRef .tc main_arg9) = (m ((c : Thread nD τ).loc main_arg9)) :=
  (W2_of_ne m ρ c main_arg9 (by decide)).trans (Chain0.W1_arg9 m ρ c)
theorem W2_arg10 : W2 m ρ c (Proc.devRef .tc main_arg10) = (m ((c : Thread nD τ).loc main_arg10)) :=
  (W2_of_ne m ρ c main_arg10 (by decide)).trans (Chain0.W1_arg10 m ρ c)
theorem W2_arg0 : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (Chain0.W1_arg0 m ρ c)
theorem W2_v0 : W2 m ρ c (Proc.devRef .tc main_v0) = (shapeCast S100000x1 (m ((c : Thread nD τ).loc main_arg6)) shapeCasts_S100000_S100000x1) :=
  ((W2_arr m ρ c 2).trans (((dat0 (V1 m ρ) c).arrAt_in 2 rfl _).trans (A_eq0 (V1 m ρ) c 2))).trans (Chain0.W1_v0 m ρ c)

/-- The user-side first-layer output: sparse product plus embedding times degree, the reference's stage. -/
theorem W2_v28 : W2 m ρ c (Proc.devRef .tc main_v28) = (val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) := by
  refine (W2_arr m ρ c 3).trans ?_
  refine (CombineValue0.final0 (V1 m ρ) c Cert.ReferenceIdeal.Facts₀.bcast_S100000x1_S100000x64_0_1).trans ?_
  show (addf (W1 m ρ c (Proc.devRef .tc main_v14) : FVec Ideal S100000x64 .f32) (mulf (W1 m ρ c (Proc.devRef .tc main_arg0) : FVec Ideal S100000x64 .f32)
      (broadcastInDim S100000x64 ![0, 1] Cert.ReferenceIdeal.Facts₀.bcast_S100000x1_S100000x64_0_1 (W1 m ρ c (Proc.devRef .tc main_v0) : FVec Ideal S100000x1 .f32))) : FVec Ideal S100000x64 .f32) = _
  rw [Chain0.W1_v14 m ρ c, Chain0.W1_arg0 m ρ c, Chain0.W1_v0 m ρ c, col_user]
  rfl

/-! ## After the item-side first-layer region -/

theorem W3_arg0 : W3 m ρ c (Proc.devRef .tc main_arg0) = (m ((c : Thread nD τ).loc main_arg0)) :=
  (W3_of_ne m ρ c main_arg0 (by decide)).trans (W2_arg0 m ρ c)
theorem W3_v0 : W3 m ρ c (Proc.devRef .tc main_v0) = (shapeCast S100000x1 (m ((c : Thread nD τ).loc main_arg6)) shapeCasts_S100000_S100000x1) :=
  (W3_of_ne m ρ c main_v0 (by decide)).trans (W2_v0 m ρ c)
theorem W3_v28 : W3 m ρ c (Proc.devRef .tc main_v28) = (val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) :=
  (W3_of_ne m ρ c main_v28 (by decide)).trans (W2_v28 m ρ c)
theorem W3_arg2 : W3 m ρ c (Proc.devRef .tc main_arg2) = (m ((c : Thread nD τ).loc main_arg2)) :=
  (W3_of_ne m ρ c main_arg2 (by decide)).trans (W2_arg2 m ρ c)
theorem W3_arg3 : W3 m ρ c (Proc.devRef .tc main_arg3) = (m ((c : Thread nD τ).loc main_arg3)) :=
  (W3_of_ne m ρ c main_arg3 (by decide)).trans (W2_arg3 m ρ c)
theorem W3_arg4 : W3 m ρ c (Proc.devRef .tc main_arg4) = (m ((c : Thread nD τ).loc main_arg4)) :=
  (W3_of_ne m ρ c main_arg4 (by decide)).trans (W2_arg4 m ρ c)
theorem W3_arg5 : W3 m ρ c (Proc.devRef .tc main_arg5) = (m ((c : Thread nD τ).loc main_arg5)) :=
  (W3_of_ne m ρ c main_arg5 (by decide)).trans (W2_arg5 m ρ c)
theorem W3_arg8 : W3 m ρ c (Proc.devRef .tc main_arg8) = (m ((c : Thread nD τ).loc main_arg8)) :=
  (W3_of_ne m ρ c main_arg8 (by decide)).trans (W2_arg8 m ρ c)
theorem W3_arg9 : W3 m ρ c (Proc.devRef .tc main_arg9) = (m ((c : Thread nD τ).loc main_arg9)) :=
  (W3_of_ne m ρ c main_arg9 (by decide)).trans (W2_arg9 m ρ c)
theorem W3_arg10 : W3 m ρ c (Proc.devRef .tc main_arg10) = (m ((c : Thread nD τ).loc main_arg10)) :=
  (W3_of_ne m ρ c main_arg10 (by decide)).trans (W2_arg10 m ρ c)
theorem W3_arg1 : W3 m ρ c (Proc.devRef .tc main_arg1) = (m ((c : Thread nD τ).loc main_arg1)) :=
  ((W3_arr m ρ c 0).trans (((dat1 (V2 m ρ) c).arrAt_in 0 rfl _).trans (A_eq1 (V2 m ρ) c 0))).trans (W2_arg1 m ρ c)
theorem W3_v1 : W3 m ρ c (Proc.devRef .tc main_v1) = (shapeCast S50000x1 (m ((c : Thread nD τ).loc main_arg7)) shapeCasts_S50000_S50000x1) :=
  ((W3_arr m ρ c 2).trans (((dat1 (V2 m ρ) c).arrAt_in 2 rfl _).trans (A_eq1 (V2 m ρ) c 2))).trans (W2_v1 m ρ c)

/-- The item-side first-layer output, the reference's stage. -/
theorem W3_v29 : W3 m ρ c (Proc.devRef .tc main_v29) = (val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7))) := by
  refine (W3_arr m ρ c 3).trans ?_
  refine (CombineValue1.final1 (V2 m ρ) c Cert.ReferenceIdeal.Facts₀.bcast_S50000x1_S50000x64_0_1).trans ?_
  show (addf (W2 m ρ c (Proc.devRef .tc main_v27) : FVec Ideal S50000x64 .f32) (mulf (W2 m ρ c (Proc.devRef .tc main_arg1) : FVec Ideal S50000x64 .f32)
      (broadcastInDim S50000x64 ![0, 1] Cert.ReferenceIdeal.Facts₀.bcast_S50000x1_S50000x64_0_1 (W2 m ρ c (Proc.devRef .tc main_v1) : FVec Ideal S50000x1 .f32))) : FVec Ideal S50000x64 .f32) = _
  rw [W2_v27 m ρ c, W2_arg1 m ρ c, W2_v1 m ρ c, col_item]
  rfl

end Cert.KernelIdeal.Chain1

end
-- ==== Proof.CombineValue2.lean ====
import proofs.«161199_j73237782331839_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CombineValue2

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

theorem zeros2 : (![0, 0] : Fin 2 → Nat) = fun _ => 0 := funext fun a => by fin_cases a <;> rfl

/-- A column [a,1] broadcast along the lanes to [a,b] reads, at (p, l), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (l : Fin b) :
    broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

/-- The whole-array result: entry (r, l) is (embed (r, l) + gcn1 (r, l)) + (spmm2 (r, l) + gcn1 (r, l) * degree r). -/
abbrev combined (hb : S100000x1.BroadcastsInDim S100000x64 (![0, 1] : Fin 2 → Fin S100000x64.rank))
    (embed gcn1 spmm2 : FVec Ideal S100000x64 .f32) (deg : FVec Ideal S100000x1 .f32) : FVec Ideal S100000x64 .f32 :=
  addf (addf embed gcn1) (addf spmm2 (mulf gcn1 (broadcastInDim S100000x64 ![0, 1] hb deg)))

/-- The row of the degree column that an entry of the result reads. -/
abbrev degRow (i : S100000x64.Idx) : S100000x1.Idx := ix2 (i 0) (0 : Fin 1)

theorem combined_apply (hb) (embed gcn1 spmm2 : FVec Ideal S100000x64 .f32) (deg : FVec Ideal S100000x1 .f32) (i : S100000x64.Idx) :
    combined hb embed gcn1 spmm2 deg i = (embed i + gcn1 i) + (spmm2 i + gcn1 i * deg (degRow i)) := by
  show (embed i + gcn1 i) + (spmm2 i + gcn1 i * broadcastInDim S100000x64 ![0, 1] hb deg i) = _
  rw [broadcastInDim_apply _ hb deg i (degRow i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]

/-- The body's payload: the shape casts to the same shape are identities. -/
theorem payload_eq (d : Vec Ideal S5000x1 .f32) (e g s : Vec Ideal S5000x64 .f32) :
    k2_pay1 d e g s = addf (addf e g) (addf s (mulf g (broadcastTo S5000x64 d broadcasts_S5000x1_S5000x64))) := by
  unfold k2_pay1
  simp only [shapeCast_self]

/-- The payload at an entry (p, l) of the block. -/
theorem payload_apply (d : Vec Ideal S5000x1 .f32) (e g s : Vec Ideal S5000x64 .f32) (y : S5000x64.Idx) :
    k2_pay1 d e g s y = (e y + g y) + (s y + g y * d (ix2 (y 0) (0 : Fin 1))) := by
  rw [payload_eq]
  show (e y + g y) + (s y + g y * broadcastTo S5000x64 d broadcasts_S5000x1_S5000x64 y) = _
  obtain ⟨p, l, rfl⟩ : ∃ (p : Fin 5000) (l : Fin 64), y = ix2 p l := ⟨y 0, y 1, eq_ix2 y⟩
  rw [broadcastTo_a1_ab_apply]

/-- The printed index maps over the 20 points: every window's block of rows is the output's, and on the lane
    axis every window has one block. -/
theorem idx_facts : ∀ t : Fin cfg2.N, win2_0.index t (0 : Fin 2) = win2_4.index t (0 : Fin 2)
    ∧ win2_1.index t (0 : Fin 2) = win2_4.index t (0 : Fin 2)
    ∧ win2_2.index t (0 : Fin 2) = win2_4.index t (0 : Fin 2)
    ∧ win2_3.index t (0 : Fin 2) = win2_4.index t (0 : Fin 2)
    ∧ win2_0.index t (1 : Fin 2) = 0 ∧ win2_1.index t (1 : Fin 2) = 0
    ∧ win2_2.index t (1 : Fin 2) = 0 ∧ win2_3.index t (1 : Fin 2) = 0 ∧ win2_4.index t (1 : Fin 2) = 0 :=
  (by decide +kernel : ∀ t : Fin grid2.N, _)

/-- Every block of 5000 rows is some point's. -/
theorem idx_onto : ∀ q : Fin 20, ∃ t : Fin cfg2.N, win2_4.index t = ![q.val, 0] :=
  (by decide +kernel : ∀ q : Fin 20, ∃ t : Fin grid2.N, win2_4.index t = ![q.val, 0])

/-- Window blocks read off their arrays. -/
theorem embedBlock_apply (c : Dev nD) (t : Fin cfg2.N) (y : S5000x64.Idx) :
    iblk2 V c 0 t y = (V c main_arg0 : FVec Ideal S100000x64 .f32) (((cfg2.win 0).blk t).view.emb y) := by
  unfold iblk2; rfl
theorem gcn1Block_apply (c : Dev nD) (t : Fin cfg2.N) (y : S5000x64.Idx) :
    iblk2 V c 1 t y = (V c main_v28 : FVec Ideal S100000x64 .f32) (((cfg2.win 1).blk t).view.emb y) := by
  unfold iblk2; rfl
theorem spmm2Block_apply (c : Dev nD) (t : Fin cfg2.N) (y : S5000x64.Idx) :
    iblk2 V c 2 t y = (V c main_v42 : FVec Ideal S100000x64 .f32) (((cfg2.win 2).blk t).view.emb y) := by
  unfold iblk2; rfl
theorem degBlock_apply (c : Dev nD) (t : Fin cfg2.N) (y : S5000x1.Idx) :
    iblk2 V c 3 t y = (V c main_v0 : FVec Ideal S100000x1 .f32) (((cfg2.win 3).blk t).view.emb y) := by
  unfold iblk2; rfl

/-- Where the blocks of point t sit in their arrays: the 64-lane windows at the output's entry, the degree
    column at the output entry's row. -/
theorem embedBlock_emb (t : Fin cfg2.N) (y : S5000x64.Idx) :
    ((cfg2.win 0).blk t).view.emb y = ((cfg2.win 4).blk t).view.emb y := by
  obtain ⟨e0, e1, e2, e3, z0, z1, z2, z3, z4⟩ := idx_facts t
  funext a; apply Fin.ext
  match a with
  | ⟨0, _⟩ => show win2_0.index t (0 : Fin 2) * 5000 + 1 * (y 0).val = win2_4.index t (0 : Fin 2) * 5000 + 1 * (y 0).val; omega
  | ⟨1, _⟩ => show win2_0.index t (1 : Fin 2) * 64 + 1 * (y 1).val = win2_4.index t (1 : Fin 2) * 64 + 1 * (y 1).val; omega
theorem gcn1Block_emb (t : Fin cfg2.N) (y : S5000x64.Idx) :
    ((cfg2.win 1).blk t).view.emb y = ((cfg2.win 4).blk t).view.emb y := by
  obtain ⟨e0, e1, e2, e3, z0, z1, z2, z3, z4⟩ := idx_facts t
  funext a; apply Fin.ext
  match a with
  | ⟨0, _⟩ => show win2_1.index t (0 : Fin 2) * 5000 + 1 * (y 0).val = win2_4.index t (0 : Fin 2) * 5000 + 1 * (y 0).val; omega
  | ⟨1, _⟩ => show win2_1.index t (1 : Fin 2) * 64 + 1 * (y 1).val = win2_4.index t (1 : Fin 2) * 64 + 1 * (y 1).val; omega
theorem spmm2Block_emb (t : Fin cfg2.N) (y : S5000x64.Idx) :
    ((cfg2.win 2).blk t).view.emb y = ((cfg2.win 4).blk t).view.emb y := by
  obtain ⟨e0, e1, e2, e3, z0, z1, z2, z3, z4⟩ := idx_facts t
  funext a; apply Fin.ext
  match a with
  | ⟨0, _⟩ => show win2_2.index t (0 : Fin 2) * 5000 + 1 * (y 0).val = win2_4.index t (0 : Fin 2) * 5000 + 1 * (y 0).val; omega
  | ⟨1, _⟩ => show win2_2.index t (1 : Fin 2) * 64 + 1 * (y 1).val = win2_4.index t (1 : Fin 2) * 64 + 1 * (y 1).val; omega
theorem degBlock_emb (t : Fin cfg2.N) (y : S5000x64.Idx) :
    ((cfg2.win 3).blk t).view.emb (ix2 (y 0) (0 : Fin 1)) = degRow (((cfg2.win 4).blk t).view.emb y) := by
  obtain ⟨e0, e1, e2, e3, z0, z1, z2, z3, z4⟩ := idx_facts t
  funext a; apply Fin.ext
  match a with
  | ⟨0, _⟩ => show win2_3.index t (0 : Fin 2) * 5000 + 1 * (y 0).val = win2_4.index t (0 : Fin 2) * 5000 + 1 * (y 0).val; omega
  | ⟨1, _⟩ => show win2_3.index t (1 : Fin 2) * 1 + 1 * 0 = 0; omega

/-- What point t writes back is its block of rows of the whole-array result. -/
theorem flushed_eq (c : Dev nD) (hb : S100000x1.BroadcastsInDim S100000x64 (![0, 1] : Fin 2 → Fin S100000x64.rank))
    (t : Fin cfg2.N) :
    (dat2 V c).flushed 4 t = ((cfg2.win 4).blk t).view.read (Elt Ideal)
      (combined hb (V c main_arg0) (V c main_v28) (V c main_v42) (V c main_v0)) := by
  show (cfg2.win 4).cut (grid2.coords t) ((dat2 V c).after 4 t) = _
  rw [after2_4]
  unfold out2_4
  rw [View.canon_unit_zero zeros2]
  simp only [View.ld_unit_zero (S := S5000x64) zeros2, View.ld_unit_zero (S := S5000x1) zeros2]
  funext y
  show k2_pay1 (iblk2 V c 3 t) (iblk2 V c 0 t) (iblk2 V c 1 t) (iblk2 V c 2 t) y
    = combined hb (V c main_arg0) (V c main_v28) (V c main_v42) (V c main_v0) (((cfg2.win 4).blk t).view.emb y)
  rw [payload_apply, combined_apply, embedBlock_apply, gcn1Block_apply, spmm2Block_apply, degBlock_apply,
    embedBlock_emb, gcn1Block_emb, spmm2Block_emb, degBlock_emb]

/-- An entry of the array is in point t's block iff each coordinate is in the block's range on its axis. -/
theorem mem_blk (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v56).slice (win2_4.rect t)).set ↔ _
  rw [View.set_slice_whole, Rect.mem_set_unit]
  exact Iff.rfl

/-- Row r lies in the block of point r / 5000: the blocks cover the array. -/
theorem rows_covered (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The array after the region: (embed + gcn1) + (spmm2 + gcn1 * degree), entry by entry. -/
theorem final2 (c : Dev nD) (hb : S100000x1.BroadcastsInDim S100000x64 (![0, 1] : Fin 2 → Fin S100000x64.rank)) :
    (dat2 V c).arrAt 4 cfg2.N
      = (addf (addf (V c main_arg0 : FVec Ideal S100000x64 .f32) (V c main_v28 : FVec Ideal S100000x64 .f32))
          (addf (V c main_v42 : FVec Ideal S100000x64 .f32) (mulf (V c main_v28 : FVec Ideal S100000x64 .f32)
            (broadcastInDim S100000x64 ![0, 1] hb (V c main_v0 : FVec Ideal S100000x1 .f32)))) : FVec Ideal S100000x64 .f32) :=
  (dat2 V c).arrAt_eq_of_cover 4 (combined hb (V c main_arg0) (V c main_v28) (V c main_v42) (V c main_v0))
    (fun t _ => flushed_eq V c hb t) rows_covered

end Cert.KernelIdeal.CombineValue2

end
-- ==== Proof.CombineValue3.lean ====
import proofs.«161199_j73237782331839_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CombineValue3

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

theorem zeros2 : (![0, 0] : Fin 2 → Nat) = fun _ => 0 := funext fun a => by fin_cases a <;> rfl

/-- A column [a,1] broadcast along the lanes to [a,b] reads, at (p, l), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (l : Fin b) :
    broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

/-- The whole-array result: entry (r, l) is (embed (r, l) + gcn1 (r, l)) + (spmm2 (r, l) + gcn1 (r, l) * degree r). -/
abbrev combined (hb : S50000x1.BroadcastsInDim S50000x64 (![0, 1] : Fin 2 → Fin S50000x64.rank))
    (embed gcn1 spmm2 : FVec Ideal S50000x64 .f32) (deg : FVec Ideal S50000x1 .f32) : FVec Ideal S50000x64 .f32 :=
  addf (addf embed gcn1) (addf spmm2 (mulf gcn1 (broadcastInDim S50000x64 ![0, 1] hb deg)))

/-- The row of the degree column that an entry of the result reads. -/
abbrev degRow (i : S50000x64.Idx) : S50000x1.Idx := ix2 (i 0) (0 : Fin 1)

theorem combined_apply (hb) (embed gcn1 spmm2 : FVec Ideal S50000x64 .f32) (deg : FVec Ideal S50000x1 .f32) (i : S50000x64.Idx) :
    combined hb embed gcn1 spmm2 deg i = (embed i + gcn1 i) + (spmm2 i + gcn1 i * deg (degRow i)) := by
  show (embed i + gcn1 i) + (spmm2 i + gcn1 i * broadcastInDim S50000x64 ![0, 1] hb deg i) = _
  rw [broadcastInDim_apply _ hb deg i (degRow i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])]

/-- The body's payload: the shape casts to the same shape are identities. -/
theorem payload_eq (d : Vec Ideal S5000x1 .f32) (e g s : Vec Ideal S5000x64 .f32) :
    k3_pay1 d e g s = addf (addf e g) (addf s (mulf g (broadcastTo S5000x64 d broadcasts_S5000x1_S5000x64))) := by
  unfold k3_pay1
  simp only [shapeCast_self]

/-- The payload at an entry (p, l) of the block. -/
theorem payload_apply (d : Vec Ideal S5000x1 .f32) (e g s : Vec Ideal S5000x64 .f32) (y : S5000x64.Idx) :
    k3_pay1 d e g s y = (e y + g y) + (s y + g y * d (ix2 (y 0) (0 : Fin 1))) := by
  rw [payload_eq]
  show (e y + g y) + (s y + g y * broadcastTo S5000x64 d broadcasts_S5000x1_S5000x64 y) = _
  obtain ⟨p, l, rfl⟩ : ∃ (p : Fin 5000) (l : Fin 64), y = ix2 p l := ⟨y 0, y 1, eq_ix2 y⟩
  rw [broadcastTo_a1_ab_apply]

/-- The printed index maps over the 10 points: every window's block of rows is the output's, and on the lane
    axis every window has one block. -/
theorem idx_facts : ∀ t : Fin cfg3.N, win3_0.index t (0 : Fin 2) = win3_4.index t (0 : Fin 2)
    ∧ win3_1.index t (0 : Fin 2) = win3_4.index t (0 : Fin 2)
    ∧ win3_2.index t (0 : Fin 2) = win3_4.index t (0 : Fin 2)
    ∧ win3_3.index t (0 : Fin 2) = win3_4.index t (0 : Fin 2)
    ∧ win3_0.index t (1 : Fin 2) = 0 ∧ win3_1.index t (1 : Fin 2) = 0
    ∧ win3_2.index t (1 : Fin 2) = 0 ∧ win3_3.index t (1 : Fin 2) = 0 ∧ win3_4.index t (1 : Fin 2) = 0 :=
  (by decide +kernel : ∀ t : Fin grid3.N, _)

/-- Every block of 5000 rows is some point's. -/
theorem idx_onto : ∀ q : Fin 10, ∃ t : Fin cfg3.N, win3_4.index t = ![q.val, 0] :=
  (by decide +kernel : ∀ q : Fin 10, ∃ t : Fin grid3.N, win3_4.index t = ![q.val, 0])

/-- Window blocks read off their arrays. -/
theorem embedBlock_apply (c : Dev nD) (t : Fin cfg3.N) (y : S5000x64.Idx) :
    iblk3 V c 0 t y = (V c main_arg1 : FVec Ideal S50000x64 .f32) (((cfg3.win 0).blk t).view.emb y) := by
  unfold iblk3; rfl
theorem gcn1Block_apply (c : Dev nD) (t : Fin cfg3.N) (y : S5000x64.Idx) :
    iblk3 V c 1 t y = (V c main_v29 : FVec Ideal S50000x64 .f32) (((cfg3.win 1).blk t).view.emb y) := by
  unfold iblk3; rfl
theorem spmm2Block_apply (c : Dev nD) (t : Fin cfg3.N) (y : S5000x64.Idx) :
    iblk3 V c 2 t y = (V c main_v55 : FVec Ideal S50000x64 .f32) (((cfg3.win 2).blk t).view.emb y) := by
  unfold iblk3; rfl
theorem degBlock_apply (c : Dev nD) (t : Fin cfg3.N) (y : S5000x1.Idx) :
    iblk3 V c 3 t y = (V c main_v1 : FVec Ideal S50000x1 .f32) (((cfg3.win 3).blk t).view.emb y) := by
  unfold iblk3; rfl

/-- Where the blocks of point t sit in their arrays: the 64-lane windows at the output's entry, the degree
    column at the output entry's row. -/
theorem embedBlock_emb (t : Fin cfg3.N) (y : S5000x64.Idx) :
    ((cfg3.win 0).blk t).view.emb y = ((cfg3.win 4).blk t).view.emb y := by
  obtain ⟨e0, e1, e2, e3, z0, z1, z2, z3, z4⟩ := idx_facts t
  funext a; apply Fin.ext
  match a with
  | ⟨0, _⟩ => show win3_0.index t (0 : Fin 2) * 5000 + 1 * (y 0).val = win3_4.index t (0 : Fin 2) * 5000 + 1 * (y 0).val; omega
  | ⟨1, _⟩ => show win3_0.index t (1 : Fin 2) * 64 + 1 * (y 1).val = win3_4.index t (1 : Fin 2) * 64 + 1 * (y 1).val; omega
theorem gcn1Block_emb (t : Fin cfg3.N) (y : S5000x64.Idx) :
    ((cfg3.win 1).blk t).view.emb y = ((cfg3.win 4).blk t).view.emb y := by
  obtain ⟨e0, e1, e2, e3, z0, z1, z2, z3, z4⟩ := idx_facts t
  funext a; apply Fin.ext
  match a with
  | ⟨0, _⟩ => show win3_1.index t (0 : Fin 2) * 5000 + 1 * (y 0).val = win3_4.index t (0 : Fin 2) * 5000 + 1 * (y 0).val; omega
  | ⟨1, _⟩ => show win3_1.index t (1 : Fin 2) * 64 + 1 * (y 1).val = win3_4.index t (1 : Fin 2) * 64 + 1 * (y 1).val; omega
theorem spmm2Block_emb (t : Fin cfg3.N) (y : S5000x64.Idx) :
    ((cfg3.win 2).blk t).view.emb y = ((cfg3.win 4).blk t).view.emb y := by
  obtain ⟨e0, e1, e2, e3, z0, z1, z2, z3, z4⟩ := idx_facts t
  funext a; apply Fin.ext
  match a with
  | ⟨0, _⟩ => show win3_2.index t (0 : Fin 2) * 5000 + 1 * (y 0).val = win3_4.index t (0 : Fin 2) * 5000 + 1 * (y 0).val; omega
  | ⟨1, _⟩ => show win3_2.index t (1 : Fin 2) * 64 + 1 * (y 1).val = win3_4.index t (1 : Fin 2) * 64 + 1 * (y 1).val; omega
theorem degBlock_emb (t : Fin cfg3.N) (y : S5000x64.Idx) :
    ((cfg3.win 3).blk t).view.emb (ix2 (y 0) (0 : Fin 1)) = degRow (((cfg3.win 4).blk t).view.emb y) := by
  obtain ⟨e0, e1, e2, e3, z0, z1, z2, z3, z4⟩ := idx_facts t
  funext a; apply Fin.ext
  match a with
  | ⟨0, _⟩ => show win3_3.index t (0 : Fin 2) * 5000 + 1 * (y 0).val = win3_4.index t (0 : Fin 2) * 5000 + 1 * (y 0).val; omega
  | ⟨1, _⟩ => show win3_3.index t (1 : Fin 2) * 1 + 1 * 0 = 0; omega

/-- What point t writes back is its block of rows of the whole-array result. -/
theorem flushed_eq (c : Dev nD) (hb : S50000x1.BroadcastsInDim S50000x64 (![0, 1] : Fin 2 → Fin S50000x64.rank))
    (t : Fin cfg3.N) :
    (dat3 V c).flushed 4 t = ((cfg3.win 4).blk t).view.read (Elt Ideal)
      (combined hb (V c main_arg1) (V c main_v29) (V c main_v55) (V c main_v1)) := by
  show (cfg3.win 4).cut (grid3.coords t) ((dat3 V c).after 4 t) = _
  rw [after3_4]
  unfold out3_4
  rw [View.canon_unit_zero zeros2]
  simp only [View.ld_unit_zero (S := S5000x64) zeros2, View.ld_unit_zero (S := S5000x1) zeros2]
  funext y
  show k3_pay1 (iblk3 V c 3 t) (iblk3 V c 0 t) (iblk3 V c 1 t) (iblk3 V c 2 t) y
    = combined hb (V c main_arg1) (V c main_v29) (V c main_v55) (V c main_v1) (((cfg3.win 4).blk t).view.emb y)
  rw [payload_apply, combined_apply, embedBlock_apply, gcn1Block_apply, spmm2Block_apply, degBlock_apply,
    embedBlock_emb, gcn1Block_emb, spmm2Block_emb, degBlock_emb]

/-- An entry of the array is in point t's block iff each coordinate is in the block's range on its axis. -/
theorem mem_blk (t : Fin cfg3.N) (i : S50000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v57).slice (win3_4.rect t)).set ↔ _
  rw [View.set_slice_whole, Rect.mem_set_unit]
  exact Iff.rfl

/-- Row r lies in the block of point r / 5000: the blocks cover the array. -/
theorem rows_covered (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ := idx_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- The array after the region: (embed + gcn1) + (spmm2 + gcn1 * degree), entry by entry. -/
theorem final3 (c : Dev nD) (hb : S50000x1.BroadcastsInDim S50000x64 (![0, 1] : Fin 2 → Fin S50000x64.rank)) :
    (dat3 V c).arrAt 4 cfg3.N
      = (addf (addf (V c main_arg1 : FVec Ideal S50000x64 .f32) (V c main_v29 : FVec Ideal S50000x64 .f32))
          (addf (V c main_v55 : FVec Ideal S50000x64 .f32) (mulf (V c main_v29 : FVec Ideal S50000x64 .f32)
            (broadcastInDim S50000x64 ![0, 1] hb (V c main_v1 : FVec Ideal S50000x1 .f32)))) : FVec Ideal S50000x64 .f32) :=
  (dat3 V c).arrAt_eq_of_cover 4 (combined hb (V c main_arg1) (V c main_v29) (V c main_v55) (V c main_v1))
    (fun t _ => flushed_eq V c hb t) rows_covered

end Cert.KernelIdeal.CombineValue3

end
-- ==== Proof.Chain2.lean ====
/-
  The buffer contents through the second layer: the second stretch of host operations and the two second-layer regions.

  The second host stretch builds the two second-layer sparse products from the first-layer outputs by the same
  gather, per-edge scaling and summation as the first; the reference builds them by the same operations on its own
  first-layer stages, which are the kernel's first-layer arrays. Each second-layer region then leaves, row by row,
  (embedding + first layer) + (sparse product + first layer times degree): the reference's final user and item
  tables, grouped the same way.
-/
import proofs.«161199_j73237782331839_1_alg».proof.Proof.Chain1
import proofs.«161199_j73237782331839_1_alg».proof.Proof.CombineValue2
import proofs.«161199_j73237782331839_1_alg».proof.Proof.CombineValue3

set_option maxRecDepth 16384

noncomputable section

namespace Cert.KernelIdeal.Chain2

open Cert.KernelIdeal Cert.KernelIdeal.Gen
open Idealize.ShloMosaic Idealize.ShloMosaic.TcCoe Idealize.SL.Sem Idealize.ShloMosaic.StableHlo
open Cert.ReferenceIdeal.Read (val_main_v0 val_main_v1 val_main_v17 val_main_v33 val_main_v46 val_main_v62 val_main_v67 val_main_v69)
open Cert.KernelIdeal.Chain1

variable (m : (ℓ : Loc nD τ sig) → Buf (Elt Ideal) ℓ) (ρ : Dev nD → PrngReg) (c : Dev nD)

/-! ## After the second host stretch -/

theorem W4_arg0 : W4 m ρ c (Proc.devRef .tc main_arg0) = (m ((c : Thread nD τ).loc main_arg0)) := by
  show StableHlo.after hostOps2 (W3 m ρ c) (Proc.devRef .tc main_arg0) = _
  after_results
  exact W3_arg0 m ρ c
theorem W4_v28 : W4 m ρ c (Proc.devRef .tc main_v28) = (val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) := by
  show StableHlo.after hostOps2 (W3 m ρ c) (Proc.devRef .tc main_v28) = _
  after_results
  exact W3_v28 m ρ c
theorem W4_v0 : W4 m ρ c (Proc.devRef .tc main_v0) = (shapeCast S100000x1 (m ((c : Thread nD τ).loc main_arg6)) shapeCasts_S100000_S100000x1) := by
  show StableHlo.after hostOps2 (W3 m ρ c) (Proc.devRef .tc main_v0) = _
  after_results
  exact W3_v0 m ρ c
theorem W4_arg1 : W4 m ρ c (Proc.devRef .tc main_arg1) = (m ((c : Thread nD τ).loc main_arg1)) := by
  show StableHlo.after hostOps2 (W3 m ρ c) (Proc.devRef .tc main_arg1) = _
  after_results
  exact W3_arg1 m ρ c
theorem W4_v29 : W4 m ρ c (Proc.devRef .tc main_v29) = (val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7))) := by
  show StableHlo.after hostOps2 (W3 m ρ c) (Proc.devRef .tc main_v29) = _
  after_results
  exact W3_v29 m ρ c
theorem W4_v1 : W4 m ρ c (Proc.devRef .tc main_v1) = (shapeCast S50000x1 (m ((c : Thread nD τ).loc main_arg7)) shapeCasts_S50000_S50000x1) := by
  show StableHlo.after hostOps2 (W3 m ρ c) (Proc.devRef .tc main_v1) = _
  after_results
  exact W3_v1 m ρ c
theorem W4_arg8 : W4 m ρ c (Proc.devRef .tc main_arg8) = (m ((c : Thread nD τ).loc main_arg8)) := by
  show StableHlo.after hostOps2 (W3 m ρ c) (Proc.devRef .tc main_arg8) = _
  after_results
  exact W3_arg8 m ρ c
theorem W4_arg9 : W4 m ρ c (Proc.devRef .tc main_arg9) = (m ((c : Thread nD τ).loc main_arg9)) := by
  show StableHlo.after hostOps2 (W3 m ρ c) (Proc.devRef .tc main_arg9) = _
  after_results
  exact W3_arg9 m ρ c
theorem W4_arg10 : W4 m ρ c (Proc.devRef .tc main_arg10) = (m ((c : Thread nD τ).loc main_arg10)) := by
  show StableHlo.after hostOps2 (W3 m ρ c) (Proc.devRef .tc main_arg10) = _
  after_results
  exact W3_arg10 m ρ c

set_option maxHeartbeats 8000000 in
/-- The second-layer sparse product into the user rows, of the item-side first-layer output. -/
theorem W4_v42 : W4 m ρ c (Proc.devRef .tc main_v42) = (val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) := by
  show StableHlo.after hostOps2 (W3 m ρ c) (Proc.devRef .tc main_v42) = _
  after_results_simp
  rw [W3_v29 m ρ c, W3_arg2 m ρ c, W3_arg3 m ρ c, W3_arg4 m ρ c]
  rfl

set_option maxHeartbeats 8000000 in
/-- The second-layer sparse product into the item rows, of the user-side first-layer output. -/
theorem W4_v55 : W4 m ρ c (Proc.devRef .tc main_v55) = (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show StableHlo.after hostOps2 (W3 m ρ c) (Proc.devRef .tc main_v55) = _
  after_results_simp
  rw [W3_v28 m ρ c, W3_arg2 m ρ c, W3_arg3 m ρ c, W3_arg5 m ρ c]
  rfl

/-! ## After the user-side second-layer region -/

theorem W5_arg1 : W5 m ρ c (Proc.devRef .tc main_arg1) = (m ((c : Thread nD τ).loc main_arg1)) :=
  (W5_of_ne m ρ c main_arg1 (by decide)).trans (W4_arg1 m ρ c)
theorem W5_v29 : W5 m ρ c (Proc.devRef .tc main_v29) = (val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7))) :=
  (W5_of_ne m ρ c main_v29 (by decide)).trans (W4_v29 m ρ c)
theorem W5_v55 : W5 m ρ c (Proc.devRef .tc main_v55) = (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (W5_of_ne m ρ c main_v55 (by decide)).trans (W4_v55 m ρ c)
theorem W5_v1 : W5 m ρ c (Proc.devRef .tc main_v1) = (shapeCast S50000x1 (m ((c : Thread nD τ).loc main_arg7)) shapeCasts_S50000_S50000x1) :=
  (W5_of_ne m ρ c main_v1 (by decide)).trans (W4_v1 m ρ c)
theorem W5_arg8 : W5 m ρ c (Proc.devRef .tc main_arg8) = (m ((c : Thread nD τ).loc main_arg8)) :=
  (W5_of_ne m ρ c main_arg8 (by decide)).trans (W4_arg8 m ρ c)
theorem W5_arg9 : W5 m ρ c (Proc.devRef .tc main_arg9) = (m ((c : Thread nD τ).loc main_arg9)) :=
  (W5_of_ne m ρ c main_arg9 (by decide)).trans (W4_arg9 m ρ c)
theorem W5_arg10 : W5 m ρ c (Proc.devRef .tc main_arg10) = (m ((c : Thread nD τ).loc main_arg10)) :=
  (W5_of_ne m ρ c main_arg10 (by decide)).trans (W4_arg10 m ρ c)

/-- The final user table: (embedding + first layer) + (sparse product + first layer times degree). -/
theorem W5_v56 : W5 m ρ c (Proc.devRef .tc main_v56) = (val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W5_arr m ρ c 4).trans ?_
  refine (CombineValue2.final2 (V4 m ρ) c Cert.ReferenceIdeal.Facts₀.bcast_S100000x1_S100000x64_0_1).trans ?_
  show (addf (addf (W4 m ρ c (Proc.devRef .tc main_arg0) : FVec Ideal S100000x64 .f32) (W4 m ρ c (Proc.devRef .tc main_v28) : FVec Ideal S100000x64 .f32)) (addf (W4 m ρ c (Proc.devRef .tc main_v42) : FVec Ideal S100000x64 .f32) (mulf (W4 m ρ c (Proc.devRef .tc main_v28) : FVec Ideal S100000x64 .f32)
      (broadcastInDim S100000x64 ![0, 1] Cert.ReferenceIdeal.Facts₀.bcast_S100000x1_S100000x64_0_1 (W4 m ρ c (Proc.devRef .tc main_v0) : FVec Ideal S100000x1 .f32)))) : FVec Ideal S100000x64 .f32) = _
  rw [W4_arg0 m ρ c, W4_v28 m ρ c, W4_v42 m ρ c, W4_v0 m ρ c, col_user]
  rfl

/-! ## After the item-side second-layer region -/

theorem W6_v56 : W6 m ρ c (Proc.devRef .tc main_v56) = (val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W6_of_ne m ρ c main_v56 (by decide)).trans (W5_v56 m ρ c)
theorem W6_arg8 : W6 m ρ c (Proc.devRef .tc main_arg8) = (m ((c : Thread nD τ).loc main_arg8)) :=
  (W6_of_ne m ρ c main_arg8 (by decide)).trans (W5_arg8 m ρ c)
theorem W6_arg9 : W6 m ρ c (Proc.devRef .tc main_arg9) = (m ((c : Thread nD τ).loc main_arg9)) :=
  (W6_of_ne m ρ c main_arg9 (by decide)).trans (W5_arg9 m ρ c)
theorem W6_arg10 : W6 m ρ c (Proc.devRef .tc main_arg10) = (m ((c : Thread nD τ).loc main_arg10)) :=
  (W6_of_ne m ρ c main_arg10 (by decide)).trans (W5_arg10 m ρ c)

/-- The final item table. -/
theorem W6_v57 : W6 m ρ c (Proc.devRef .tc main_v57) = (val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W6_arr m ρ c 4).trans ?_
  refine (CombineValue3.final3 (V5 m ρ) c Cert.ReferenceIdeal.Facts₀.bcast_S50000x1_S50000x64_0_1).trans ?_
  show (addf (addf (W5 m ρ c (Proc.devRef .tc main_arg1) : FVec Ideal S50000x64 .f32) (W5 m ρ c (Proc.devRef .tc main_v29) : FVec Ideal S50000x64 .f32)) (addf (W5 m ρ c (Proc.devRef .tc main_v55) : FVec Ideal S50000x64 .f32) (mulf (W5 m ρ c (Proc.devRef .tc main_v29) : FVec Ideal S50000x64 .f32)
      (broadcastInDim S50000x64 ![0, 1] Cert.ReferenceIdeal.Facts₀.bcast_S50000x1_S50000x64_0_1 (W5 m ρ c (Proc.devRef .tc main_v1) : FVec Ideal S50000x1 .f32)))) : FVec Ideal S50000x64 .f32) = _
  rw [W5_arg1 m ρ c, W5_v29 m ρ c, W5_v55 m ρ c, W5_v1 m ρ c, col_item]
  rfl

end Cert.KernelIdeal.Chain2

end
-- ==== Proof.LossCover.lean ====
import proofs.«161199_j73237782331839_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LossCover

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! ## The loss region: one grid point, every window's block is its whole array

The loss region has a single grid point and each of its four index maps is constantly zero on both axes. So
each window's block at that point is the whole array: the three input blocks are the arrays the region finds,
and the one block written back fills the `[1, 1]` result. -/

/-- Every index map of the region is zero on both axes, at every grid point (decided over the one point). -/
theorem index_zero : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-! ## Reading a whole-array block

A block's element `y` sits in the array, on each axis, at block index × block extent + 1 × the coordinate of `y`;
with block index zero that is the coordinate itself, so reading an array through the block returns the array. -/

/-- Window 0's block read of an array is the array. -/
theorem read_block_u (t : Fin cfg4.N) (A : Vec Ideal S4096x64 .f32) :
    ((cfg4.win 0).blk t).view.read (Elt Ideal) A = A := by
  obtain ⟨e0, e1, -⟩ := index_zero t
  funext y
  show A (((cfg4.win 0).blk t).view.emb y) = A y
  refine congrArg A (funext fun a => Fin.ext ?_)
  match a with
  | ⟨0, _⟩ => show win4_0.index t (0 : Fin 2) * 4096 + 1 * (y 0).val = (y 0).val; omega
  | ⟨1, _⟩ => show win4_0.index t (1 : Fin 2) * 64 + 1 * (y 1).val = (y 1).val; omega

/-- Window 1's block read of an array is the array. -/
theorem read_block_pi (t : Fin cfg4.N) (A : Vec Ideal S4096x64 .f32) :
    ((cfg4.win 1).blk t).view.read (Elt Ideal) A = A := by
  obtain ⟨-, -, e0, e1, -⟩ := index_zero t
  funext y
  show A (((cfg4.win 1).blk t).view.emb y) = A y
  refine congrArg A (funext fun a => Fin.ext ?_)
  match a with
  | ⟨0, _⟩ => show win4_1.index t (0 : Fin 2) * 4096 + 1 * (y 0).val = (y 0).val; omega
  | ⟨1, _⟩ => show win4_1.index t (1 : Fin 2) * 64 + 1 * (y 1).val = (y 1).val; omega

/-- Window 2's block read of an array is the array. -/
theorem read_block_pj (t : Fin cfg4.N) (A : Vec Ideal S4096x64 .f32) :
    ((cfg4.win 2).blk t).view.read (Elt Ideal) A = A := by
  obtain ⟨-, -, -, -, e0, e1, -⟩ := index_zero t
  funext y
  show A (((cfg4.win 2).blk t).view.emb y) = A y
  refine congrArg A (funext fun a => Fin.ext ?_)
  match a with
  | ⟨0, _⟩ => show win4_2.index t (0 : Fin 2) * 4096 + 1 * (y 0).val = (y 0).val; omega
  | ⟨1, _⟩ => show win4_2.index t (1 : Fin 2) * 64 + 1 * (y 1).val = (y 1).val; omega

/-- The output window's block read of a `[1, 1]` array is the array. -/
theorem read_block_loss (t : Fin cfg4.N) (A : Vec Ideal S1x1 .f32) :
    ((cfg4.win 3).blk t).view.read (Elt Ideal) A = A := by
  obtain ⟨-, -, -, -, -, -, e0, e1⟩ := index_zero t
  funext y
  show A (((cfg4.win 3).blk t).view.emb y) = A y
  refine congrArg A (funext fun a => Fin.ext ?_)
  match a with
  | ⟨0, _⟩ => show win4_3.index t (0 : Fin 2) * 1 + 1 * (y 0).val = (y 0).val; omega
  | ⟨1, _⟩ => show win4_3.index t (1 : Fin 2) * 1 + 1 * (y 1).val = (y 1).val; omega

/-! ## The three input blocks are the arrays the region finds -/

theorem iblk_u (c : Dev nD) (t : Fin cfg4.N) : iblk4 V c 0 t = V c main_v64 := by
  unfold iblk4
  exact read_block_u t (V c main_v64)

theorem iblk_pi (c : Dev nD) (t : Fin cfg4.N) : iblk4 V c 1 t = V c main_v71 := by
  unfold iblk4
  exact read_block_pi t (V c main_v71)

theorem iblk_pj (c : Dev nD) (t : Fin cfg4.N) : iblk4 V c 2 t = V c main_v78 := by
  unfold iblk4
  exact read_block_pj t (V c main_v78)

/-! ## What the one point writes back, and the array after the region -/

/-- The point writes back the loss of the three arrays: its block of the `[1, 1]` result, which is the whole result. -/
theorem flushed_loss (c : Dev nD) (t : Fin cfg4.N) :
    (dat4 V c).flushed 3 t
      = ((cfg4.win 3).blk t).view.read (Elt Ideal) (out4_3 (V c main_v64) (V c main_v71) (V c main_v78)) := by
  show (cfg4.win 3).cut (grid4.coords t) ((dat4 V c).after 3 t) = _
  rw [after4_3, iblk_u, iblk_pi, iblk_pj, read_block_loss]
  rfl

/-- An index of the result is in a point's block iff each coordinate is in the block's range on its axis. -/
theorem mem_block_loss (t : Fin cfg4.N) (i : S1x1.Idx) :
    i ∈ ((cfg4.win 3).blk t).view.set ↔
      ∀ a : Fin 2, win4_3.index t a * S1x1.size a ≤ (i a).val ∧ (i a).val < win4_3.index t a * S1x1.size a + S1x1.size a := by
  show i ∈ ((View.whole main_v79).slice (win4_3.rect t)).set ↔ _
  rw [View.set_slice_whole, Rect.mem_set_unit]
  exact Iff.rfl

/-- Every index of the `[1, 1]` result lies in the one point's block. -/
theorem loss_covered (i : S1x1.Idx) :
    ∃ t : Fin cfg4.N, (cfg4.win 3).flush t = true ∧ i ∈ ((cfg4.win 3).blk t).view.set := by
  refine ⟨t4_0, flush4_3 t4_0, ?_⟩
  rw [mem_block_loss]
  obtain ⟨-, -, -, -, -, -, e0, e1⟩ := index_zero t4_0
  have h0 : (i 0).val < 1 := (i 0).isLt
  have h1 : (i 1).val < 1 := (i 1).isLt
  intro a
  match a with
  | ⟨0, _⟩ =>
    show win4_3.index t4_0 (0 : Fin 2) * 1 ≤ (i 0).val ∧ (i 0).val < win4_3.index t4_0 (0 : Fin 2) * 1 + 1
    omega
  | ⟨1, _⟩ =>
    show win4_3.index t4_0 (1 : Fin 2) * 1 ≤ (i 1).val ∧ (i 1).val < win4_3.index t4_0 (1 : Fin 2) * 1 + 1
    omega

/-- THE ARRAY after the region: the loss of the three arrays the region finds. -/
theorem final4 (c : Dev nD) :
    (dat4 V c).arrAt 3 cfg4.N = out4_3 (V c main_v64) (V c main_v71) (V c main_v78) :=
  (dat4 V c).arrAt_eq_of_cover 3 (out4_3 (V c main_v64) (V c main_v71) (V c main_v78))
    (fun t _ => flushed_loss V c t) loss_covered

end Cert.KernelIdeal.LossCover

end
-- ==== Proof.LossValue.lean ====
/-
  The loss region, as mathematics: the loss kernel's [1,1] result, as one function of its three [4096,64] input blocks
  u, pi, pj, is the reference's loss of the same three arrays.

  Both programs compute, on the extended reals,
      (Σ_b softplus(−(Σ_k u·pi − Σ_k u·pj))) / 4096  +  w·((Σ_b Σ_k u·u) / 262144)  +  w·((Σ_b Σ_k (pi·pi + pj·pj)) / 262144)
  with softplus x = max x 0 + log(1 + exp(−|x|)) behind a guard "x ≠ x" that never holds on a linear order, and w, 4096,
  262144 float words that are the same on both sides and are never evaluated. The kernel sums each row over its 64
  lanes, keeps the sums as a [4096,1] column, sums the column over its rows into [1] and casts to [1,1]; every sum starts
  from the zero word, which a lane sum leaves out. The reference sums rows by one sum over axis 1 and takes each mean by one
  sum over every entry, each from the zero word as an initial value: 0 + Σ. The kernel writes 0 − y where the reference
  negates. The laws that join them: the zero word is 0; 0 + y = y, y − 0 = y, y + 0 = y, 0 − y = −y; a sum over a rank-2
  index set is the double sum over its coordinates, a sum over a rank-1 index set the sum over its coordinate; the
  comparisons "ordered and not equal" and "unordered or not equal" are one function where nothing is unordered.
  Nothing here needs the entries finite.
-/
import proofs.«161199_j73237782331839_1_alg».proof.Proof.Gen.KernelIdeal.Frame
import proofs.«161199_j73237782331839_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LossValue

open Cert.KernelIdeal Cert.KernelIdeal.Gen Idealize.ShloMosaic Idealize.ShloMosaic.TcCoe Idealize.SL.Sem
open Idealize.ShloMosaic.Pipeline (Dat Cfg Window)
open Idealize.ShloMosaic.ValueIdx
open scoped BigOperators

/-! ## The reference's loss as one function of the three gathered arrays -/

/-- The reference's zero row: the zero word broadcast over the 4096 rows. -/
def zeroRow : FVec Ideal Cert.ReferenceIdeal.S4096 .f32 :=
  broadcastInDim Cert.ReferenceIdeal.S4096 ![] Cert.ReferenceIdeal.Gen.bcast_S_S4096 (constant (F := Ideal) Cert.ReferenceIdeal.S_ .f32 0x00000000#32)

/-- Row-wise inner products of two arrays: the host's sum over the 64 lanes, from the zero word. -/
def predRef (a p : FVec Ideal Cert.ReferenceIdeal.S4096x64 .f32) : FVec Ideal Cert.ReferenceIdeal.S4096 .f32 :=
  Host.reduceAdd (F := Ideal) (mulf a p) (constant (F := Ideal) Cert.ReferenceIdeal.S_ .f32 0x00000000#32)
    Cert.ReferenceIdeal.Gen.reducesTo_S4096x64_S4096_d1 Cert.ReferenceIdeal.Gen.h_S_

/-- The weighted mean of an array's entries: the host's sum over every entry, from the zero word, divided by 262144,
    times the regularisation weight. -/
def meanRef (w : FVec Ideal Cert.ReferenceIdeal.S4096x64 .f32) : FVec Ideal Cert.ReferenceIdeal.S_ .f32 :=
  mulf (constant (F := Ideal) Cert.ReferenceIdeal.S_ .f32 0x38D1B717#32)
    (Host.divf (F := Ideal)
      (Host.reduceAdd (F := Ideal) w (constant (F := Ideal) Cert.ReferenceIdeal.S_ .f32 0x00000000#32)
        Cert.ReferenceIdeal.Gen.reducesTo_S4096x64_S_d0_1 Cert.ReferenceIdeal.Gen.h_S_)
      (constant (F := Ideal) Cert.ReferenceIdeal.S_ .f32 0x48800000#32))

/-- The reference's softplus of a row vector x: x + 0 where x − 0 differs from itself (never, on a linear order), else
    max x 0 + log (1 + exp (−|x − 0|)). -/
def softplusRef (x : FVec Ideal Cert.ReferenceIdeal.S4096 .f32) : FVec Ideal Cert.ReferenceIdeal.S4096 .f32 :=
  select (cmpf .une (subf x zeroRow) (subf x zeroRow)) (addf x zeroRow)
    (addf (maximumf x zeroRow) (Host.log1p (F := Ideal) (Host.exp (F := Ideal) (Host.negf (F := Ideal) (Host.absf (F := Ideal) (subf x zeroRow))))))

/-- The reference's loss of the three gathered arrays: the mean softplus of the negated score difference plus the
    two weighted means of squares. -/
def lossRef (u pi pj : FVec Ideal Cert.ReferenceIdeal.S4096x64 .f32) : FVec Ideal Cert.ReferenceIdeal.S_ .f32 :=
  addf
    (Host.divf (F := Ideal)
      (Host.reduceAdd (F := Ideal) (softplusRef (Host.negf (F := Ideal) (subf (predRef u pi) (predRef u pj))))
        (constant (F := Ideal) Cert.ReferenceIdeal.S_ .f32 0x00000000#32)
        Cert.ReferenceIdeal.Gen.reducesTo_S4096_S_d0 Cert.ReferenceIdeal.Gen.h_S_)
      (constant (F := Ideal) Cert.ReferenceIdeal.S_ .f32 0x45800000#32))
    (addf (meanRef (mulf u u)) (meanRef (addf (mulf pi pi) (mulf pj pj))))

open Cert.ReferenceIdeal.Read in
/-- The reference's last operation is that function of its three gathers. -/
theorem ref_eq
    (x0 : (⟨Cert.ReferenceIdeal.S100000x64, .f32⟩ : BufTy).Contents (Elt Ideal))
    (x1 : (⟨Cert.ReferenceIdeal.S50000x64, .f32⟩ : BufTy).Contents (Elt Ideal))
    (x2 x3 : (⟨Cert.ReferenceIdeal.S3200000, .i32⟩ : BufTy).Contents (Elt Ideal))
    (x4 x5 : (⟨Cert.ReferenceIdeal.S3200000, .f32⟩ : BufTy).Contents (Elt Ideal))
    (x6 : (⟨Cert.ReferenceIdeal.S100000, .f32⟩ : BufTy).Contents (Elt Ideal))
    (x7 : (⟨Cert.ReferenceIdeal.S50000, .f32⟩ : BufTy).Contents (Elt Ideal))
    (x8 x9 x10 : (⟨Cert.ReferenceIdeal.S4096, .i32⟩ : BufTy).Contents (Elt Ideal)) :
    val_main_v111 (F := Ideal) x0 x1 x2 x3 x4 x5 x6 x7 x8 x9 x10
      = lossRef (val_main_v76 (F := Ideal) x0 x1 x2 x3 x4 x5 x6 x7 x8) (val_main_v83 (F := Ideal) x0 x1 x2 x3 x4 x5 x6 x7 x9)
          (val_main_v90 (F := Ideal) x0 x1 x2 x3 x4 x5 x6 x7 x10) := by
  rfl

/-! ## Layout and sum laws over the literal shapes -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the lanes of a [4096,64] vector, read at row b: the sum over the 64 lanes of that row. -/
theorem laneSum_apply (src : FVec Ideal S4096x64 .f32) (hφ : FKind.Formats .f32)
    (hacc : (0x00000000#32 : BitVec 32) = 0x00000000#32) (b : Fin 4096) :
    multiReduction .add [1] S4096 src 0x00000000#32 reduces_S4096x64_S4096 hφ hacc (ix1 b) = ∑ k : Fin 64, src (ix2 b k) :=
  (Ideal.multiReduction_add_single src 0x00000000#32 reduces_S4096x64_S4096 hφ hacc (ix1 b)).trans
    (Finset.sum_congr rfl fun k _ => congrArg src (funext fun a => Fin.ext (by match a with | ⟨0, _⟩ => rfl | ⟨1, _⟩ => rfl)))

/-- A sum over the rows of a [4096,1] column: the sum over the 4096 rows. -/
theorem colSum_apply (w : FVec Ideal S4096x1 .f32) (hφ : FKind.Formats .f32)
    (hacc : (0x00000000#32 : BitVec 32) = 0x00000000#32) (q : Fin 1) :
    multiReduction .add [0] S1 w 0x00000000#32 reduces_S4096x1_S1 hφ hacc (ix1 q) = ∑ b : Fin 4096, w (ix2 b q) :=
  (Ideal.multiReduction_add_single w 0x00000000#32 reduces_S4096x1_S1 hφ hacc (ix1 q)).trans
    (Finset.sum_congr rfl fun k _ => congrArg w (funext fun a => Fin.ext (by match a with | ⟨0, _⟩ => rfl | ⟨1, _⟩ => rfl)))

/-- The keepdims cast [4096] → [4096,1] reads row b at (b, c). -/
theorem colCast_apply {α : Type} (v : S4096.Idx → α) (b : Fin 4096) (c : Fin 1) :
    shapeCast S4096x1 v shapeCasts_S4096_S4096x1 (ix2 b c) = v (ix1 b) :=
  shapeCast_apply v shapeCasts_S4096_S4096x1 _ _ (by
    have hc : c.val = 0 := by omega
    rw [Shape.rowMajor_val_two, Shape.rowMajor_val_one]
    show b.val = b.val * 1 + c.val
    rw [hc, Nat.mul_one, Nat.add_zero])

/-- The keepdims cast [1] → [1,1] reads the one entry at (p, q). -/
theorem cellCast_apply {α : Type} (v : S1.Idx → α) (p q : Fin 1) :
    shapeCast S1x1 v shapeCasts_S1_S1x1 (ix2 p q) = v (ix1 q) :=
  shapeCast_a_1a_apply v shapeCasts_S1_S1x1 p q

/-- The lane sums as a column: row b of the [4096,1] column is the sum over that row's 64 lanes. -/
theorem laneSumCol_apply (src : FVec Ideal S4096x64 .f32) (hφ : FKind.Formats .f32)
    (hacc : (0x00000000#32 : BitVec 32) = 0x00000000#32) (b : Fin 4096) (c : Fin 1) :
    shapeCast S4096x1 (multiReduction .add [1] S4096 src 0x00000000#32 reduces_S4096x64_S4096 hφ hacc) shapeCasts_S4096_S4096x1 (ix2 b c)
      = ∑ k : Fin 64, src (ix2 b k) :=
  (colCast_apply _ b c).trans (laneSum_apply src hφ hacc b)

/-- The sum of a column as the one cell of a [1,1] vector: the sum over the 4096 rows. -/
theorem colSumCell_apply (w : FVec Ideal S4096x1 .f32) (hφ : FKind.Formats .f32)
    (hacc : (0x00000000#32 : BitVec 32) = 0x00000000#32) (p q : Fin 1) :
    shapeCast S1x1 (multiReduction .add [0] S1 w 0x00000000#32 reduces_S4096x1_S1 hφ hacc) shapeCasts_S1_S1x1 (ix2 p q)
      = ∑ b : Fin 4096, w (ix2 b q) :=
  (cellCast_apply _ p q).trans (colSum_apply w hφ hacc q)

/-- The sum over rows of the lane sums, as the one cell of a [1,1] vector: the double sum over rows and lanes. -/
theorem totalCell_apply (src : FVec Ideal S4096x64 .f32) (hφ : FKind.Formats .f32)
    (hacc : (0x00000000#32 : BitVec 32) = 0x00000000#32) (hφ' : FKind.Formats .f32)
    (hacc' : (0x00000000#32 : BitVec 32) = 0x00000000#32) (p q : Fin 1) :
    shapeCast S1x1 (multiReduction .add [0] S1
        (shapeCast S4096x1 (multiReduction .add [1] S4096 src 0x00000000#32 reduces_S4096x64_S4096 hφ hacc) shapeCasts_S4096_S4096x1)
        0x00000000#32 reduces_S4096x1_S1 hφ' hacc') shapeCasts_S1_S1x1 (ix2 p q)
      = ∑ b : Fin 4096, ∑ k : Fin 64, src (ix2 b k) :=
  (colSumCell_apply _ hφ' hacc' p q).trans (Finset.sum_congr rfl fun b _ => laneSumCol_apply src hφ hacc b q)

/-! ## The value both sides compute -/

/-- The score of row b against an item array: Σ_k a(b,k)·p(b,k). -/
def rowDot (a p : FVec Ideal S4096x64 .f32) (b : Fin 4096) : EReal := ∑ k : Fin 64, a (ix2 b k) * p (ix2 b k)

/-- softplus as both programs spell it, at the extended reals: x where x differs from itself (never), else
    max x 0 + log (1 + exp (−|x|)), with |x| = max x (−x). -/
def softplus (x : EReal) : EReal :=
  Scalar.select (Ideal.cmp .une x x) x (max x 0 + Ideal.log1p (Ideal.exp (-(max x (-x)))))

/-- The loss: the mean over the 4096 rows of softplus(−(score_i − score_j)), plus the weight times the mean of the
    squares of u, plus the weight times the mean of the squares of pi and pj. The three float words (4096, 262144, the
    weight) are kept as words: the same on both sides. -/
def lossVal (u pi pj : FVec Ideal S4096x64 .f32) : EReal :=
  Ideal.div (∑ b : Fin 4096, softplus (-(rowDot u pi b - rowDot u pj b))) (Ideal.ofBits .f32 0x45800000#32)
    + (Ideal.ofBits .f32 0x38D1B717#32
          * Ideal.div (∑ b : Fin 4096, ∑ k : Fin 64, u (ix2 b k) * u (ix2 b k)) (Ideal.ofBits .f32 0x48800000#32)
        + Ideal.ofBits .f32 0x38D1B717#32
          * Ideal.div (∑ b : Fin 4096, ∑ k : Fin 64, (pi (ix2 b k) * pi (ix2 b k) + pj (ix2 b k) * pj (ix2 b k)))
              (Ideal.ofBits .f32 0x48800000#32))

/-! ## The kernel's payload at its one index -/

/-- The zero offsets of the whole-buffer rectangles, as a constant function. -/
theorem zero_off2 : (![0, 0] : Fin 2 → Nat) = fun _ => 0 := by
  funext a; fin_cases a <;> rfl

/-- The one store covers the [1,1] buffer and each load reads its whole block: the buffer holds the payload of the
    three blocks. -/
theorem out_eq_payload (u pi pj : FVec Ideal S4096x64 .f32) :
    out4_3 (F := Ideal) u pi pj
      = k4_pay1 (F := Ideal) (k4_pay5 (F := Ideal) u pi pj) (k4_pay6 (F := Ideal) u pi pj) (Scalar.ofBits .f32 0x00000000#32) (k4_pay7 (F := Ideal) u pi pj) (k4_pay8 (F := Ideal) u pi pj)
          (k4_pay9 (F := Ideal) u pi pj) := by
  unfold out4_3
  rw [View.canon_unit_zero zero_off2]
  simp only [View.ld_unit_zero (S := S4096x64) zero_off2]

/-- A cast of a [4096,64] block to its own shape is the block. -/
theorem pay2_eq (u : FVec Ideal S4096x64 .f32) : k4_pay2 (F := Ideal) u = u := shapeCast_self u _
theorem pay3_eq (u : FVec Ideal S4096x64 .f32) : k4_pay3 (F := Ideal) u = u := shapeCast_self u _
theorem pay4_eq (u : FVec Ideal S4096x64 .f32) : k4_pay4 (F := Ideal) u = u := shapeCast_self u _

/-- Row b of the kernel's column x: 0 − (score_i − score_j) = −(score_i − score_j). -/
theorem pay6_apply (u pi pj : FVec Ideal S4096x64 .f32) (b : Fin 4096) (c : Fin 1) :
    k4_pay6 (F := Ideal) u pi pj (ix2 b c) = -(rowDot u pi b - rowDot u pj b) := by
  have e1 := laneSumCol_apply (mulf (k4_pay2 (F := Ideal) u) (k4_pay3 (F := Ideal) pi)) (.inl rfl) rfl b c
  have e2 := laneSumCol_apply (mulf (k4_pay2 (F := Ideal) u) (k4_pay4 (F := Ideal) pj)) (.inl rfl) rfl b c
  refine (congrArg₂ (fun s t : EReal => Ideal.ofBits .f32 0x00000000#32 - (s - t)) e1 e2).trans ?_
  rw [pay2_eq, pay3_eq, pay4_eq, Ideal.ofBits_zero_f32, zero_sub]
  rfl

/-- max x 0, x − 0 and the guard x − 0 ≠ x − 0, entry by entry. -/
theorem pay7_apply (u pi pj : FVec Ideal S4096x64 .f32) (y : S4096x1.Idx) :
    k4_pay7 (F := Ideal) u pi pj y = max (k4_pay6 (F := Ideal) u pi pj y) (Ideal.ofBits .f32 0x00000000#32) := rfl
theorem pay8_apply (u pi pj : FVec Ideal S4096x64 .f32) (y : S4096x1.Idx) :
    k4_pay8 (F := Ideal) u pi pj y = k4_pay6 (F := Ideal) u pi pj y - Ideal.ofBits .f32 0x00000000#32 := rfl
theorem pay9_apply (u pi pj : FVec Ideal S4096x64 .f32) (y : S4096x1.Idx) :
    k4_pay9 (F := Ideal) u pi pj y = Ideal.cmp .one (k4_pay8 (F := Ideal) u pi pj y) (k4_pay8 (F := Ideal) u pi pj y) := rfl

/-- The two weighted means of squares at the one cell: each a sum over rows of sums over lanes. -/
theorem pay5_apply (u pi pj : FVec Ideal S4096x64 .f32) (p q : Fin 1) :
    k4_pay5 (F := Ideal) u pi pj (ix2 p q)
      = Ideal.ofBits .f32 0x38D1B717#32
          * Ideal.div (∑ b : Fin 4096, ∑ k : Fin 64, u (ix2 b k) * u (ix2 b k)) (Ideal.ofBits .f32 0x48800000#32)
        + Ideal.ofBits .f32 0x38D1B717#32
          * Ideal.div (∑ b : Fin 4096, ∑ k : Fin 64, (pi (ix2 b k) * pi (ix2 b k) + pj (ix2 b k) * pj (ix2 b k)))
              (Ideal.ofBits .f32 0x48800000#32) := by
  have e1 := totalCell_apply (mulf (k4_pay2 (F := Ideal) u) (k4_pay2 (F := Ideal) u)) (.inl rfl) rfl (.inl rfl) rfl p q
  have e2 := totalCell_apply (addf (mulf (k4_pay3 (F := Ideal) pi) (k4_pay3 (F := Ideal) pi)) (mulf (k4_pay4 (F := Ideal) pj) (k4_pay4 (F := Ideal) pj))) (.inl rfl) rfl (.inl rfl) rfl p q
  refine (congrArg₂ (fun s t : EReal => Ideal.ofBits .f32 0x38D1B717#32 * Ideal.div s (Ideal.ofBits .f32 0x48800000#32)
      + Ideal.ofBits .f32 0x38D1B717#32 * Ideal.div t (Ideal.ofBits .f32 0x48800000#32)) e1 e2).trans ?_
  rw [pay2_eq, pay3_eq, pay4_eq]
  rfl

/-- The last payload at the one cell, over any column operands: the sum over the rows of the selected entries, divided
    by 4096, plus the regularisation cell. -/
theorem pay1_apply (v32 : FVec Ideal S1x1 .f32) (v35 : FVec Ideal S4096x1 .f32) (z : Ideal .f32) (v37 v39 : FVec Ideal S4096x1 .f32)
    (v40 : IVec S4096x1 1) (p q : Fin 1) :
    k4_pay1 (F := Ideal) v32 v35 z v37 v39 v40 (ix2 p q)
      = Ideal.div (∑ b : Fin 4096, Scalar.select (v40 (ix2 b q)) (v35 (ix2 b q) + z)
            (v37 (ix2 b q) + Ideal.log1p (Ideal.exp (Ideal.ofBits .f32 0x00000000#32 - max (v39 (ix2 b q)) (-(v39 (ix2 b q)))))))
          (Ideal.ofBits .f32 0x45800000#32)
        + v32 (ix2 p q) := by
  have e := colSumCell_apply (select v40 (addf v35 (broadcast S4096x1 z))
      (addf v37 (log1p (exp (subf (broadcast S4096x1 (Scalar.ofBits (F := Ideal) .f32 0x00000000#32)) (absf v39)))))) (.inl rfl) rfl p q
  exact congrArg (fun s : EReal => Ideal.div s (Ideal.ofBits .f32 0x45800000#32) + v32 (ix2 p q)) e

/-- THE KERNEL'S VALUE: the [1,1] buffer's one entry is the loss. -/
theorem kernel_val (u pi pj : FVec Ideal S4096x64 .f32) (p q : Fin 1) :
    out4_3 (F := Ideal) u pi pj (ix2 p q) = lossVal u pi pj := by
  rw [out_eq_payload, pay1_apply, pay5_apply]
  simp only [pay7_apply, pay8_apply, pay9_apply, pay6_apply]
  have hs : Scalar.ofBits (F := Ideal) .f32 0x00000000#32 = 0 := Ideal.ofBits_zero_f32
  simp only [hs, Ideal.ofBits_zero_f32, sub_zero, add_zero, zero_sub]
  rfl

/-! ## The reference's sums read at an index -/

/-- The host's sum over the lanes, at row b: the initial value plus the sum over the 64 lanes of that row. -/
theorem hostLaneSum_apply (y : FVec Ideal Cert.ReferenceIdeal.S4096x64 .f32) (init : FVec Ideal Cert.ReferenceIdeal.S_ .f32) (b : Fin 4096) :
    Host.reduceAdd (F := Ideal) y init Cert.ReferenceIdeal.Gen.reducesTo_S4096x64_S4096_d1 Cert.ReferenceIdeal.Gen.h_S_ (ix1 b)
      = init (Shape.Idx.first Cert.ReferenceIdeal.Gen.h_S_) + ∑ k : Fin 64, y (ix2 b k) := by
  simp only [Host.reduceAdd, Ideal.hostReduceAdd_def]
  rw [Ideal.hostReduceAdd_single Cert.ReferenceIdeal.Gen.reducesTo_S4096x64_S4096_d1 (by decide)]
  exact congrArg (_ + ·) (Finset.sum_congr rfl fun k _ =>
    congrArg y (funext fun a => Fin.ext (by match a with | ⟨0, _⟩ => rfl | ⟨1, _⟩ => rfl)))

/-- The host's sum over every entry of a [4096,64] array: the initial value plus the double sum over rows and lanes. -/
theorem hostTotal2_apply (y : FVec Ideal Cert.ReferenceIdeal.S4096x64 .f32) (init : FVec Ideal Cert.ReferenceIdeal.S_ .f32)
    (i : Cert.ReferenceIdeal.S_.Idx) :
    Host.reduceAdd (F := Ideal) y init Cert.ReferenceIdeal.Gen.reducesTo_S4096x64_S_d0_1 Cert.ReferenceIdeal.Gen.h_S_ i
      = init (Shape.Idx.first Cert.ReferenceIdeal.Gen.h_S_) + ∑ b : Fin 4096, ∑ k : Fin 64, y (ix2 b k) := by
  simp only [Host.reduceAdd, Ideal.hostReduceAdd_def]
  rw [Ideal.hostReduceAdd_total Cert.ReferenceIdeal.Gen.reducesTo_S4096x64_S_d0_1 (fun b => b.elim0) y _ i, sum_idx2]

/-- The host's sum over every entry of a [4096] row vector: the initial value plus the sum over the rows. -/
theorem hostTotal1_apply (y : FVec Ideal Cert.ReferenceIdeal.S4096 .f32) (init : FVec Ideal Cert.ReferenceIdeal.S_ .f32)
    (i : Cert.ReferenceIdeal.S_.Idx) :
    Host.reduceAdd (F := Ideal) y init Cert.ReferenceIdeal.Gen.reducesTo_S4096_S_d0 Cert.ReferenceIdeal.Gen.h_S_ i
      = init (Shape.Idx.first Cert.ReferenceIdeal.Gen.h_S_) + ∑ b : Fin 4096, y (ix1 b) := by
  simp only [Host.reduceAdd, Ideal.hostReduceAdd_def]
  rw [Ideal.hostReduceAdd_total Cert.ReferenceIdeal.Gen.reducesTo_S4096_S_d0 (fun b => b.elim0) y _ i, sum_idx1]

/-- The reference's score of row b: the zero word plus the row's sum of products. -/
theorem predRef_apply (a p : FVec Ideal Cert.ReferenceIdeal.S4096x64 .f32) (b : Fin 4096) :
    predRef a p (ix1 b) = Ideal.ofBits .f32 0x00000000#32 + rowDot a p b :=
  hostLaneSum_apply (mulf a p) _ b

/-- The reference's softplus, entry by entry. -/
theorem softplusRef_apply (x : FVec Ideal Cert.ReferenceIdeal.S4096 .f32) (j : Cert.ReferenceIdeal.S4096.Idx) :
    softplusRef x j
      = Scalar.select (Ideal.cmp .une (x j - Ideal.ofBits .f32 0x00000000#32) (x j - Ideal.ofBits .f32 0x00000000#32))
          (x j + Ideal.ofBits .f32 0x00000000#32)
          (max (x j) (Ideal.ofBits .f32 0x00000000#32)
            + Ideal.log1p (Ideal.exp (-(max (x j - Ideal.ofBits .f32 0x00000000#32) (-(x j - Ideal.ofBits .f32 0x00000000#32)))))) := rfl

/-- THE REFERENCE'S VALUE: its one entry is the loss. -/
theorem ref_val (u pi pj : FVec Ideal Cert.ReferenceIdeal.S4096x64 .f32) (i : Cert.ReferenceIdeal.S_.Idx) :
    lossRef u pi pj i = lossVal u pi pj := by
  have e1 := hostTotal1_apply (softplusRef (Host.negf (F := Ideal) (subf (predRef u pi) (predRef u pj))))
    (constant (F := Ideal) Cert.ReferenceIdeal.S_ .f32 0x00000000#32) i
  have e2 := hostTotal2_apply (mulf u u) (constant (F := Ideal) Cert.ReferenceIdeal.S_ .f32 0x00000000#32) i
  have e3 := hostTotal2_apply (addf (mulf pi pi) (mulf pj pj)) (constant (F := Ideal) Cert.ReferenceIdeal.S_ .f32 0x00000000#32) i
  refine (congrArg₂ (fun s t : EReal => s + t)
    (congrArg (fun s : EReal => Ideal.div s (Ideal.ofBits .f32 0x45800000#32)) e1)
    (congrArg₂ (fun s t : EReal => Ideal.ofBits .f32 0x38D1B717#32 * Ideal.div s (Ideal.ofBits .f32 0x48800000#32)
      + Ideal.ofBits .f32 0x38D1B717#32 * Ideal.div t (Ideal.ofBits .f32 0x48800000#32)) e2 e3)).trans ?_
  have hx : ∀ (A B : FVec Ideal Cert.ReferenceIdeal.S4096 .f32) (j : Cert.ReferenceIdeal.S4096.Idx),
      (Host.negf (F := Ideal) (subf A B)) j = -(A j - B j) := fun _ _ _ => rfl
  simp only [softplusRef_apply, hx, predRef_apply, constant_apply, mulf_apply, addf_apply, Ideal.ofBits_zero_f32, zero_add,
    sub_zero, add_zero]
  rfl

/-! ## The two sides joined -/

/-- THE LOSS REGION: the kernel's [1,1] result, cast to the scalar shape, is the reference's loss of the same three
    arrays. Both are functions on the one index of the rank-0 shape; the cast reads the [1,1] buffer's one entry. -/
theorem loss_eq (u pi pj : FVec Ideal S4096x64 .f32) :
    shapeCast S_ (out4_3 (F := Ideal) u pi pj) shapeCasts_S1x1_S_ = lossRef u pi pj := by
  funext i
  have hk : (S1x1.rowMajor (ix2 (0 : Fin 1) (0 : Fin 1))).val = (S_.rowMajor i).val := by
    rw [Shape.rowMajor_val_two]
    exact (Shape.rowMajorPi_zero _ _).symm
  rw [shapeCast_apply _ shapeCasts_S1x1_S_ i (ix2 (0 : Fin 1) (0 : Fin 1)) hk, kernel_val, ref_val]

end Cert.KernelIdeal.LossValue

end
-- ==== Proof.Chain3.lean ====
/-
  The buffer contents through the loss: the batch gathers, the loss region and the last recast.

  The third host stretch gathers the batch's rows of the two final tables — the same gathers as the reference's, of
  tables that are the reference's — the loss region's one grid point reads the three gathered arrays whole and writes
  the one entry of its output, and the last host operation recasts that one-by-one array to a scalar. The loss as a
  function of the three gathered arrays is the reference's, so the result is the reference's result stage.
-/
import proofs.«161199_j73237782331839_1_alg».proof.Proof.Chain2
import proofs.«161199_j73237782331839_1_alg».proof.Proof.LossCover
import proofs.«161199_j73237782331839_1_alg».proof.Proof.LossValue

set_option maxRecDepth 16384

noncomputable section

namespace Cert.KernelIdeal.Chain3

open Cert.KernelIdeal Cert.KernelIdeal.Gen
open Idealize.ShloMosaic Idealize.ShloMosaic.TcCoe Idealize.SL.Sem Idealize.ShloMosaic.StableHlo
open Cert.ReferenceIdeal.Read (val_main_v67 val_main_v69 val_main_v76 val_main_v83 val_main_v90 val_main_v111)
open Cert.KernelIdeal.Chain1 Cert.KernelIdeal.Chain2

variable (m : (ℓ : Loc nD τ sig) → Buf (Elt Ideal) ℓ) (ρ : Dev nD → PrngReg) (c : Dev nD)

/-! ## After the third host stretch: the batch's rows -/

set_option maxHeartbeats 8000000 in
/-- The batch's user rows of the final user table. -/
theorem W7_v64 : W7 m ρ c (Proc.devRef .tc main_v64) = (val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps4 (W6 m ρ c) (Proc.devRef .tc main_v64) = _
  after_results_simp
  rw [W6_v56 m ρ c, W6_arg8 m ρ c]
  rfl

set_option maxHeartbeats 8000000 in
/-- The batch's positive-item rows of the final item table. -/
theorem W7_v71 : W7 m ρ c (Proc.devRef .tc main_v71) = (val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9))) := by
  show StableHlo.after hostOps4 (W6 m ρ c) (Proc.devRef .tc main_v71) = _
  after_results_simp
  rw [W6_v57 m ρ c, W6_arg9 m ρ c]
  rfl

set_option maxHeartbeats 8000000 in
/-- The batch's negative-item rows of the final item table. -/
theorem W7_v78 : W7 m ρ c (Proc.devRef .tc main_v78) = (val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) := by
  show StableHlo.after hostOps4 (W6 m ρ c) (Proc.devRef .tc main_v78) = _
  after_results_simp
  rw [W6_v57 m ρ c, W6_arg10 m ρ c]
  rfl

/-! ## The loss region and the result -/

/-- The loss region's one-by-one output: the body's result of the three gathered arrays read whole. -/
theorem W8_v79 : W8 m ρ c (Proc.devRef .tc main_v79) = out4_3 (F := Ideal) (val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9))) (val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) := by
  refine (W8_arr m ρ c 3).trans ?_
  refine (LossCover.final4 (V7 m ρ) c).trans ?_
  show out4_3 (F := Ideal) (W7 m ρ c (Proc.devRef .tc main_v64)) (W7 m ρ c (Proc.devRef .tc main_v71)) (W7 m ρ c (Proc.devRef .tc main_v78)) = _
  rw [W7_v64 m ρ c, W7_v71 m ρ c, W7_v78 m ρ c]

/-- THE RESULT: the kernel program's scalar is the reference's result stage of the same arguments. -/
theorem W9_v80 : W9 m ρ c (Proc.devRef .tc main_v80) = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine Eq.trans (b := shapeCast S_ (W8 m ρ c (Proc.devRef .tc main_v79)) shapeCasts_S1x1_S_) ?_ ?_
  · show StableHlo.after hostOps5 (W8 m ρ c) (Proc.devRef .tc main_v80) = _
    after_results
    rfl
  · rw [W8_v79 m ρ c, LossValue.loss_eq, ← LossValue.ref_eq]

end Cert.KernelIdeal.Chain3

end
-- ==== Proof.lean ====
/-
  The five claims of this certificate.

  The kernel program is a two-layer graph convolution over a user table and an item table followed by a
  pairwise ranking loss. Its host side gathers rows of one table along the edges, scales them per edge and
  sums them into the rows of the other table (the sparse products); four kernel regions add, row block by
  row block, the degree-scaled residuals — first layer: sparse product + embedding · degree; second layer:
  (embedding + first layer) + (sparse product + first layer · degree) —; the host gathers the batch's rows;
  and one kernel region computes the loss of the three gathered arrays: the mean over the batch of
  softplus(−(⟨u, pᵢ⟩ − ⟨u, pⱼ⟩)) plus λ · mean(u²) + λ · mean(pᵢ² + pⱼ²). The reference computes the same
  quantities by host operations only.

  On the extended reals the two programs are the same expression of the arguments, stage by stage: the sparse
  products are the same host operations on both sides; each residual region's array is the reference's
  pointwise stage (the degree column is the degree vector read at the row, whether it was recast or broadcast);
  the gathers are the same; and the loss agrees because a sum over lanes then rows is the sum over all entries,
  0 − y is −y, and the two not-a-number guards of the softplus are the same comparison. No step needs the
  inputs finite, so the precondition is never opened.

  The frames of the two kernel programs are their generated frame certificates, the reference's frame is its
  generated run with the result dropped, and the idealization rewrote no operation.
-/
import proofs.«161199_j73237782331839_1_alg».proof.Defs
import proofs.«161199_j73237782331839_1_alg».proof.Proof.Gen.Kernel
import proofs.«161199_j73237782331839_1_alg».proof.Proof.Gen.Kernel.Frame
import proofs.«161199_j73237782331839_1_alg».proof.Proof.Gen.KernelIdeal
import proofs.«161199_j73237782331839_1_alg».proof.Proof.Gen.KernelIdeal.Frame
import proofs.«161199_j73237782331839_1_alg».proof.Proof.Gen.ReferenceIdeal
import proofs.«161199_j73237782331839_1_alg».proof.Proof.Gen.ReferenceIdeal.Run
import proofs.«161199_j73237782331839_1_alg».proof.Proof.Gen.ReferenceIdeal.Read
import proofs.«161199_j73237782331839_1_alg».proof.Proof.Gen.Pre_finite_inputs
import proofs.«161199_j73237782331839_1_alg».proof.Proof.KernelRun
import proofs.«161199_j73237782331839_1_alg».proof.Proof.Chain3
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's result stage of the kernel's arguments: the kernel program by reading its
    result buffer back through its nine segments, the reference by its run, the two memories agreeing on the arguments. -/
theorem algebraic : Cert.algebraic_KernelIdeal_ReferenceIdeal := by
  intro m ρ m' ρ' _ hagree
  refine ⟨fun c => Cert.ReferenceIdeal.Read.val_main_v111 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain3.W9_v80 m ρ c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v111_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
